-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S1x64 .f32) (main_arg9 : FVec F S64 .f32) (main_arg10 : FVec F S64x1 .f32) (main_arg11 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x1 .f32) (main_arg7 : FVec F S1 .f32) (main_arg8 : FVec F S1x64 .f32) (main_arg9 : FVec F S64 .f32) (main_arg10 : FVec F S64x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1200000 32) (main_arg2 : FVec F S128x64 .f32) (main_arg3 : FVec F S64 .f32) (main_arg4 : FVec F S64x64 .f32) (main_arg5 : FVec F S64 .f32) (main_arg6 : FVec F S64x1 .f32) (main_arg7 : FVec F S1 .f32) (main_arg8 : FVec F S1x64 .f32) (main_arg9 : FVec F S64 .f32) (main_arg10 : FVec F S64x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S10000x128 : Shape := ⟨2, ![10000, 128]⟩
abbrev S10000x64 : Shape := ⟨2, ![10000, 64]⟩
abbrev S1300000x64 : Shape := ⟨2, ![1300000, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 107
  | .vmem => 50
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S100000, .i32⟩
  | .hbm, ⟨13, _⟩ => ⟨S1x1200000, .i32⟩
  | .hbm, ⟨14, _⟩ => ⟨S1200000, .i32⟩
  | .hbm, ⟨15, _⟩ => ⟨S1300000, .i32⟩
  | .hbm, ⟨16, _⟩ => ⟨S1x1200000, .i32⟩
  | .hbm, ⟨17, _⟩ => ⟨S1200000, .i32⟩
  | .hbm, ⟨18, _⟩ => ⟨S1300000, .i32⟩
  | .hbm, ⟨19, _⟩ => ⟨S_, .f32⟩
  | .hbm, ⟨20, _⟩ => ⟨S1300000, .f32⟩
  | .hbm, ⟨21, _⟩ => ⟨S_, .f32⟩
  | .hbm, ⟨22, _⟩ => ⟨S100000, .f32⟩
  | .hbm, ⟨23, _⟩ => ⟨S1300000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S_, .i32⟩
  | .hbm, ⟨36, _⟩ => ⟨S1300000, .i32⟩
  | .hbm, ⟨37, _⟩ => ⟨S1300000, .i1⟩
  | .hbm, ⟨38, _⟩ => ⟨S_, .i32⟩
  | .hbm, ⟨39, _⟩ => ⟨S1300000, .i32⟩
  | .hbm, ⟨40, _⟩ => ⟨S1300000, .i32⟩
  | .hbm, ⟨41, _⟩ => ⟨S1300000, .i32⟩
  | .hbm, ⟨42, _⟩ => ⟨S1300000x1, .i32⟩
  | .hbm, ⟨43, _⟩ => ⟨S1300000, .f32⟩
  | .hbm, ⟨44, _⟩ => ⟨S1300000, .f32⟩
  | .hbm, ⟨45, _⟩ => ⟨S100000x64, .f32⟩
  | .hbm, ⟨46, _⟩ => ⟨S_, .i32⟩
  | .hbm, ⟨47, _⟩ => ⟨S1300000, .i32⟩
  | .hbm, ⟨48, _⟩ => ⟨S1300000, .i1⟩
  | .hbm, ⟨49, _⟩ => ⟨S_, .i32⟩
  | .hbm, ⟨50, _⟩ => ⟨S1300000, .i32⟩
  | .hbm, ⟨51, _⟩ => ⟨S1300000, .i32⟩
  | .hbm, ⟨52, _⟩ => ⟨S1300000, .i32⟩
  | .hbm, ⟨53, _⟩ => ⟨S1300000x1, .i32⟩
  | .hbm, ⟨54, _⟩ => ⟨S1300000x64, .f32⟩
  | .hbm, ⟨55, _⟩ => ⟨S1300000x1, .f32⟩
  | .hbm, ⟨56, _⟩ => ⟨S1300000x64, .f32⟩
  | .hbm, ⟨57, _⟩ => ⟨S1300000x64, .f32⟩
  | .hbm, ⟨58, _⟩ => ⟨S_, .f32⟩
  | .hbm, ⟨59, _⟩ => ⟨S100000x64, .f32⟩
  | .hbm, ⟨60, _⟩ => ⟨S1300000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1300000, .i32⟩
  | .hbm, ⟨67, _⟩ => ⟨S1300000, .i1⟩
  | .hbm, ⟨68, _⟩ => ⟨S_, .i32⟩
  | .hbm, ⟨69, _⟩ => ⟨S1300000, .i32⟩
  | .hbm, ⟨70, _⟩ => ⟨S1300000, .i32⟩
  | .hbm, ⟨71, _⟩ => ⟨S1300000, .i32⟩
  | .hbm, ⟨72, _⟩ => ⟨S1300000x1, .i32⟩
  | .hbm, ⟨73, _⟩ => ⟨S1300000x64, .f32⟩
  | .hbm, ⟨74, _⟩ => ⟨S1300000x1, .f32⟩
  | .hbm, ⟨75, _⟩ => ⟨S1300000x64, .f32⟩
  | .hbm, ⟨76, _⟩ => ⟨S1300000x64, .f32⟩
  | .hbm, ⟨77, _⟩ => ⟨S_, .f32⟩
  | .hbm, ⟨78, _⟩ => ⟨S100000x64, .f32⟩
  | .hbm, ⟨79, _⟩ => ⟨S1300000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x1, .f32⟩
  | .hbm, ⟨84, _⟩ => ⟨S_, .i32⟩
  | .hbm, ⟨85, _⟩ => ⟨S1300000, .i32⟩
  | .hbm, ⟨86, _⟩ => ⟨S1300000, .i1⟩
  | .hbm, ⟨87, _⟩ => ⟨S_, .i32⟩
  | .hbm, ⟨88, _⟩ => ⟨S1300000, .i32⟩
  | .hbm, ⟨89, _⟩ => ⟨S1300000, .i32⟩
  | .hbm, ⟨90, _⟩ => ⟨S1300000, .i32⟩
  | .hbm, ⟨91, _⟩ => ⟨S1300000x1, .i32⟩
  | .hbm, ⟨92, _⟩ => ⟨S1300000x1, .f32⟩
  | .hbm, ⟨93, _⟩ => ⟨S1300000x1, .f32⟩
  | .hbm, ⟨94, _⟩ => ⟨S1300000x1, .f32⟩
  | .hbm, ⟨95, _⟩ => ⟨S_, .f32⟩
  | .hbm, ⟨96, _⟩ => ⟨S100000x1, .f32⟩
  | .hbm, ⟨97, _⟩ => ⟨S1300000x1, .i32⟩
  | .hbm, ⟨98, _⟩ => ⟨S100000x1, .f32⟩
  | .hbm, ⟨99, _⟩ => ⟨S1x1, .f32⟩
  | .hbm, ⟨100, _⟩ => ⟨S100000x1, .f32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x1, .f32⟩
  | .hbm, ⟨105, _⟩ => ⟨S1x1, .f32⟩
  | .hbm, ⟨106, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x1, .f32⟩
  | .local _ .vmem, ⟨23, _⟩ => ⟨S10000x1, .f32⟩
  | .local _ .vmem, ⟨24, _⟩ => ⟨S10000x1, .f32⟩
  | .local _ .vmem, ⟨25, _⟩ => ⟨S10000x1, .f32⟩
  | .local _ .vmem, ⟨26, _⟩ => ⟨S10000x1, .f32⟩
  | .local _ .vmem, ⟨27, _⟩ => ⟨S1x1, .f32⟩
  | .local _ .vmem, ⟨28, _⟩ => ⟨S10000x1, .f32⟩
  | .local _ .vmem, ⟨29, _⟩ => ⟨S10000x1, .f32⟩
  | .local _ .vmem, ⟨30, _⟩ => ⟨S10000x1, .f32⟩
  | .local _ .vmem, ⟨31, _⟩ => ⟨S10000x1, .f32⟩
  | .local _ .vmem, ⟨32, _⟩ => ⟨S1x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S64x1, .f32⟩
  | .local _ .vmem, ⟨43, _⟩ => ⟨S10000x1, .f32⟩
  | .local _ .vmem, ⟨44, _⟩ => ⟨S10000x1, .f32⟩
  | .local _ .vmem, ⟨45, _⟩ => ⟨S10000x1, .f32⟩
  | .local _ .vmem, ⟨46, _⟩ => ⟨S10000x1, .f32⟩
  | .local _ .vmem, ⟨47, _⟩ => ⟨S1x1, .f32⟩
  | .local _ .vmem, ⟨48, _⟩ => ⟨S10000x1, .f32⟩
  | .local _ .vmem, ⟨49, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_10 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x1 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x128_S128x64_S10000x64_1_0_0_1_n_n_wf : DotDims.WF S10000x128 S128x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  gather_S100000x1_S1300000x1_S1300000x1_1_0_n_n_0_1_11_wf : GatherDims.WF S100000x1 S1300000x1 S1300000x1 [1] [0] [] [0] [] 1 ![1, 1]
  scatter_S100000x1_S1300000x1_S1300000x1_1_0_0_1_wf : ScatterDims.WF S100000x1 S1300000x1 S1300000x1 [1] [0] [0] 1
  dot_S10000x1_S1x64_S10000x64_1_0_0_1_n_n_wf : DotDims.WF S10000x1 S1x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .f32 = 32 ∨ (Rect.block (s := S100000x1) S10000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x1.size a ≤ S100000x1.size a
  hwx6_0 : ∀ i : grid6.Coords, EltTy.bits .f32 = 32 ∨ (Rect.block (s := S100000x1) S10000x1.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x1.size a ≤ S64x1.size a
  hwx8_1 : ∀ i : grid8.Coords, EltTy.bits .f32 = 32 ∨ (Rect.block (s := S64x1) S64x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x1.size a ≤ S100000x1.size a
  hwx8_2 : ∀ i : grid8.Coords, EltTy.bits .f32 = 32 ∨ (Rect.block (s := S100000x1) S10000x1.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x1.size a ≤ S100000x1.size a
  hwx9_0 : ∀ i : grid9.Coords, EltTy.bits .f32 = 32 ∨ (Rect.block (s := S100000x1) S10000x1.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x1.size a ≤ S1x1.size a
  hwx9_1 : ∀ i : grid9.Coords, EltTy.bits .f32 = 32 ∨ (Rect.block (s := S1x1) S1x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x1.size a ≤ S100000x1.size a
  hwx9_2 : ∀ i : grid9.Coords, EltTy.bits .f32 = 32 ∨ (Rect.block (s := S100000x1) S10000x1.size (cc9_transform_2 i) (hinb9_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1300000x1_S1300000x1_1_0_n_n_0_1_11 : GatherDims S100000x1 S1300000x1 S1300000x1 where
  offsetDims := [1]
  collapsedSliceDims := [0]
  operandBatchingDims := []
  startIndicesBatchingDims := []
  startIndexMap := [0]
  indexVectorDim := 1
  sliceSizes := ![1, 1]
  wf := gather_S100000x1_S1300000x1_S1300000x1_1_0_n_n_0_1_11_wf
def scatter_S100000x1_S1300000x1_S1300000x1_1_0_0_1 : ScatterDims S100000x1 S1300000x1 S1300000x1 where
  updateWindowDims := [1]
  insertedWindowDims := [0]
  scatterDimsToOperandDims := [0]
  indexVectorDim := 1
  wf := scatter_S100000x1_S1300000x1_S1300000x1_1_0_0_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v73) S10000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v74) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v74) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v76) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v76) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v77) S10000x1.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v77) S10000x1.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v78) S1x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v79) S10000x1.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S100000x1 : Shape := ⟨2, ![100000, 1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S100000, .i32⟩
  | .hbm, ⟨13, _⟩ => ⟨S1x1200000, .i32⟩
  | .hbm, ⟨14, _⟩ => ⟨S1200000, .i32⟩
  | .hbm, ⟨15, _⟩ => ⟨S1300000, .i32⟩
  | .hbm, ⟨16, _⟩ => ⟨S1x1200000, .i32⟩
  | .hbm, ⟨17, _⟩ => ⟨S1200000, .i32⟩
  | .hbm, ⟨18, _⟩ => ⟨S1300000, .i32⟩
  | .hbm, ⟨19, _⟩ => ⟨S_, .f32⟩
  | .hbm, ⟨20, _⟩ => ⟨S1300000, .f32⟩
  | .hbm, ⟨21, _⟩ => ⟨S_, .f32⟩
  | .hbm, ⟨22, _⟩ => ⟨S100000, .f32⟩
  | .hbm, ⟨23, _⟩ => ⟨S1300000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S_, .i32⟩
  | .hbm, ⟨36, _⟩ => ⟨S1300000, .i32⟩
  | .hbm, ⟨37, _⟩ => ⟨S1300000, .i1⟩
  | .hbm, ⟨38, _⟩ => ⟨S_, .i32⟩
  | .hbm, ⟨39, _⟩ => ⟨S1300000, .i32⟩
  | .hbm, ⟨40, _⟩ => ⟨S1300000, .i32⟩
  | .hbm, ⟨41, _⟩ => ⟨S1300000, .i32⟩
  | .hbm, ⟨42, _⟩ => ⟨S1300000x1, .i32⟩
  | .hbm, ⟨43, _⟩ => ⟨S1300000, .f32⟩
  | .hbm, ⟨44, _⟩ => ⟨S1300000, .f32⟩
  | .hbm, ⟨45, _⟩ => ⟨S100000x64, .f32⟩
  | .hbm, ⟨46, _⟩ => ⟨S_, .i32⟩
  | .hbm, ⟨47, _⟩ => ⟨S1300000, .i32⟩
  | .hbm, ⟨48, _⟩ => ⟨S1300000, .i1⟩
  | .hbm, ⟨49, _⟩ => ⟨S_, .i32⟩
  | .hbm, ⟨50, _⟩ => ⟨S1300000, .i32⟩
  | .hbm, ⟨51, _⟩ => ⟨S1300000, .i32⟩
  | .hbm, ⟨52, _⟩ => ⟨S1300000, .i32⟩
  | .hbm, ⟨53, _⟩ => ⟨S1300000x1, .i32⟩
  | .hbm, ⟨54, _⟩ => ⟨S1300000x64, .f32⟩
  | .hbm, ⟨55, _⟩ => ⟨S1300000x1, .f32⟩
  | .hbm, ⟨56, _⟩ => ⟨S1300000x64, .f32⟩
  | .hbm, ⟨57, _⟩ => ⟨S1300000x64, .f32⟩
  | .hbm, ⟨58, _⟩ => ⟨S_, .f32⟩
  | .hbm, ⟨59, _⟩ => ⟨S100000x64, .f32⟩
  | .hbm, ⟨60, _⟩ => ⟨S1300000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1300000, .i32⟩
  | .hbm, ⟨71, _⟩ => ⟨S1300000, .i1⟩
  | .hbm, ⟨72, _⟩ => ⟨S_, .i32⟩
  | .hbm, ⟨73, _⟩ => ⟨S1300000, .i32⟩
  | .hbm, ⟨74, _⟩ => ⟨S1300000, .i32⟩
  | .hbm, ⟨75, _⟩ => ⟨S1300000, .i32⟩
  | .hbm, ⟨76, _⟩ => ⟨S1300000x1, .i32⟩
  | .hbm, ⟨77, _⟩ => ⟨S1300000x64, .f32⟩
  | .hbm, ⟨78, _⟩ => ⟨S1300000x1, .f32⟩
  | .hbm, ⟨79, _⟩ => ⟨S1300000x64, .f32⟩
  | .hbm, ⟨80, _⟩ => ⟨S1300000x64, .f32⟩
  | .hbm, ⟨81, _⟩ => ⟨S_, .f32⟩
  | .hbm, ⟨82, _⟩ => ⟨S100000x64, .f32⟩
  | .hbm, ⟨83, _⟩ => ⟨S1300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x1, .f32⟩
  | .hbm, ⟨92, _⟩ => ⟨S_, .i32⟩
  | .hbm, ⟨93, _⟩ => ⟨S1300000, .i32⟩
  | .hbm, ⟨94, _⟩ => ⟨S1300000, .i1⟩
  | .hbm, ⟨95, _⟩ => ⟨S_, .i32⟩
  | .hbm, ⟨96, _⟩ => ⟨S1300000, .i32⟩
  | .hbm, ⟨97, _⟩ => ⟨S1300000, .i32⟩
  | .hbm, ⟨98, _⟩ => ⟨S1300000, .i32⟩
  | .hbm, ⟨99, _⟩ => ⟨S1300000x1, .i32⟩
  | .hbm, ⟨100, _⟩ => ⟨S1300000x1, .f32⟩
  | .hbm, ⟨101, _⟩ => ⟨S1300000x1, .f32⟩
  | .hbm, ⟨102, _⟩ => ⟨S1300000x1, .f32⟩
  | .hbm, ⟨103, _⟩ => ⟨S_, .f32⟩
  | .hbm, ⟨104, _⟩ => ⟨S100000x1, .f32⟩
  | .hbm, ⟨105, _⟩ => ⟨S1300000x1, .i32⟩
  | .hbm, ⟨106, _⟩ => ⟨S100000x1, .f32⟩
  | .hbm, ⟨107, _⟩ => ⟨S1x1, .f32⟩
  | .hbm, ⟨108, _⟩ => ⟨S100000x1, .f32⟩
  | .hbm, ⟨109, _⟩ => ⟨S100000x1, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S_, .f32⟩
  | .hbm, ⟨115, _⟩ => ⟨S100000x64, .f32⟩
  | .hbm, ⟨116, _⟩ => ⟨S100000x64, .f32⟩
  | .hbm, ⟨117, _⟩ => ⟨S100000x1, .f32⟩
  | .hbm, ⟨118, _⟩ => ⟨S1x1, .f32⟩
  | .hbm, ⟨119, _⟩ => ⟨S100000x1, .f32⟩
  | .hbm, ⟨120, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call1_cst : Ref sig .tc := ⟨.hbm, 88, rfl⟩
abbrev main_call1_v0 : Ref sig .tc := ⟨.hbm, 89, rfl⟩
abbrev main_v62 : Ref sig .tc := ⟨.hbm, 90, rfl⟩
abbrev main_v63 : Ref sig .tc := ⟨.hbm, 91, rfl⟩
abbrev main_c_10 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call2_cst : Ref sig .tc := ⟨.hbm, 114, rfl⟩
abbrev main_call2_v0 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x128_S128x64_S100000x64_1_0_0_1_n_n_wf : DotDims.WF S100000x128 S128x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000x1_S1300000x1_S1300000x1_1_0_n_n_0_1_11_wf : GatherDims.WF S100000x1 S1300000x1 S1300000x1 [1] [0] [] [0] [] 1 ![1, 1]
  scatter_S100000x1_S1300000x1_S1300000x1_1_0_0_1_wf : ScatterDims.WF S100000x1 S1300000x1 S1300000x1 [1] [0] [0] 1
  dot_S100000x1_S1x64_S100000x64_1_0_0_1_n_n_wf : DotDims.WF S100000x1 S1x64 S100000x64 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1300000x1_S1300000x1_1_0_n_n_0_1_11 : GatherDims S100000x1 S1300000x1 S1300000x1 where
  offsetDims := [1]
  collapsedSliceDims := [0]
  operandBatchingDims := []
  startIndicesBatchingDims := []
  startIndexMap := [0]
  indexVectorDim := 1
  sliceSizes := ![1, 1]
  wf := gather_S100000x1_S1300000x1_S1300000x1_1_0_n_n_0_1_11_wf
def scatter_S100000x1_S1300000x1_S1300000x1_1_0_0_1 : ScatterDims S100000x1 S1300000x1 S1300000x1 where
  updateWindowDims := [1]
  insertedWindowDims := [0]
  scatterDimsToOperandDims := [0]
  indexVectorDim := 1
  wf := scatter_S100000x1_S1300000x1_S1300000x1_1_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf

class Facts : Prop extends Facts₀ where

variable [Facts]
-- ==== Proof.RunResult.lean ====
/-
  The whole program's run with its result named.

  Every weakly fair execution of @main terminates, nothing faulting, and in every final state the result buffer holds
  what the last boundary's contents `W16` — the fold of the six host stretches and the ten launches from the launch
  memory — hold there, and the twelve arguments are as launched. This is the launch of the sixteen segments exactly as
  for the frame claim; the only difference is that the final contents are also read at the result buffer.
-/
import proofs.«182035_j2637109920399_1_alg».proof.Proof.Gen.KernelIdeal.Frame

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main, with the result buffer at the last boundary's contents and the arguments unchanged. -/
theorem run_result : θ_run defs (onTc (τ := τ) (main (F := F))) ⟨m, fun _ => 0, ρ⟩ (fun r => ∀ c : Dev nD,
      r.2.mem ((c.tc : Thread nD τ).loc main_v79) = W16 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v79 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.Dense

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«182035_j2637109920399_1_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«182035_j2637109920399_1_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.Region0.lean ====
/-
  Region 0: a product with a fixed matrix, computed block of rows by block of rows.

  The launch has ten grid points. Point t reads rows 10000·t … 10000·t + 9999 of the [100000, 128] array in `main_arg0` and the
  whole [128, 64] matrix in `main_arg2`, multiplies them on the matrix unit into a zero accumulator (the operands narrowed to
  bf16 first, which on the extended reals changes nothing), and writes the [10000, 64] result back as rows
  10000·t … 10000·t + 9999 of `main_v27`. Row p of a product only reads row p of the left factor, so what point t writes is
  exactly that stretch of rows of the one product of the two whole arrays; the ten stretches cover every row. Hence, whatever
  the buffers hold when the region is entered (`V`), `main_v27` ends as `prod (V main_arg0) (V main_arg2)`.
-/
import proofs.«182035_j2637109920399_1_alg».proof.Proof.Gen.KernelIdeal.Frame
import Idealize.ShloMosaic.Lib.Pipeline.Value
import proofs.«182035_j2637109920399_1_alg».proof.Proof.LibMatProduct
import proofs.«182035_j2637109920399_1_alg».proof.Proof.LibRowBias

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)
open Cert.MatProduct (prod rowOf colOf)

variable (V : (c : Dev nD) → (b : Ref sig .tc) → Buf (Elt Ideal) ((c : Thread nD τ).loc b))

theorem zeros0 : (![0, 0] : Fin 2 → Nat) = fun _ => 0 := funext fun a => by fin_cases a <;> rfl

/-- The body's one stored value is the product of its two loaded blocks. -/
theorem pay0 (x : Vec Ideal S10000x128 .f32) (w : Vec Ideal S128x64 .f32) : k0_pay1 (F := Ideal) x w = prod x w := by
  unfold k0_pay1
  exact Cert.MatProduct.matmul_zero_eq_prod (M := 10000) (K := 128) (N := 64) none x w

/-- Where each window's block sits at point t: the row blocks move with t, the matrix stays. -/
theorem place0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem wrote0 (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zeros0]
  simp only [View.ld_unit_zero (S := S10000x128) zeros0, View.ld_unit_zero (S := S128x64) zeros0]
  rw [pay0]
  obtain ⟨e0, e1, e2, e3, e4, e5⟩ := place0 t
  refine funext fun (j : S10000x64.Idx) => ?_
  show prod (M := 10000) (K := 128) (N := 64) (iblk0 V c 0 t) (iblk0 V c 1 t) j
    = prod (M := 100000) (K := 128) (N := 64) (V c main_arg0) (V c main_arg2) (((cfg0.win 2).blk t).view.emb j)
  refine Cert.RowBias.prod_entry_congr j _ (fun k => ?_) (fun k => ?_)
  · show V c main_arg0 (((cfg0.win 0).blk t).view.emb (ix2 (rowOf (M := 10000) (N := 64) j) k)) = _
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      rw [e0, e4]
    | ⟨1, _⟩ =>
      show win0_0.index t (1 : Fin 2) * 128 + 1 * k.val = k.val
      omega
  · show V c main_arg2 (((cfg0.win 1).blk t).view.emb (ix2 k (colOf (M := 10000) (N := 64) j))) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 64 + 1 * (j 1).val = win0_2.index t (1 : Fin 2) * 64 + 1 * (j 1).val
      rw [e3, e5]

/-- An index of `main_v27` is in point t's block iff each coordinate is in the block's range on its axis. -/
theorem inBlock0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- Every index of `main_v27` lies in the block of the point numbered by its row divided by 10000. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := lt_of_lt_of_eq (by omega : (i 0).val / 10000 < 10) N_0.symm
  obtain ⟨-, -, -, -, e4, e5⟩ := place0 ⟨(i 0).val / 10000, hN⟩
  refine ⟨⟨(i 0).val / 10000, hN⟩, flush0_2 _, ?_⟩
  rw [inBlock0]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hN⟩ (1 : Fin 2) * 64 ≤ (i 1).val ∧ (i 1).val < win0_2.index ⟨(i 0).val / 10000, hN⟩ (1 : Fin 2) * 64 + 64
    rw [e5]
    omega

/-- After the launch `main_v27` holds the product of the two arrays as the region found them. -/
theorem result0 (c : Dev nD) : (dat0 V c).arrAt 2 cfg0.N = prod (V c main_arg0) (V c main_arg2) :=
  (dat0 V c).arrAt_eq_of_cover 2 (prod (V c main_arg0) (V c main_arg2)) (fun t _ => wrote0 V c t) covered0

end Cert.KernelIdeal.Dense

end
-- ==== Proof.Region1.lean ====
/-
  Region 1: a bias row added to every row, floored at zero, computed block of rows by block of rows.

  The launch has ten grid points. Point t reads rows 10000·t … 10000·t + 9999 of the [100000, 64] array in `main_v40` and the
  one-row array [1, 64] in `main_v41`, spreads the row down the block, adds, takes the maximum with zero, and writes the block back
  as the same rows of `main_v42`. Entry (r, c) of the result only reads entry (r, c) of the array and entry (0, c) of the row, so
  what point t writes is that stretch of rows of the one whole-array function; the ten stretches cover every row. Hence,
  whatever the buffers hold when the region is entered (`V`), `main_v42` ends as `addRowMax (V main_v40) (V main_v41) 0`.
-/
import proofs.«182035_j2637109920399_1_alg».proof.Proof.Gen.KernelIdeal.Frame
import Idealize.ShloMosaic.Lib.Pipeline.Value
import proofs.«182035_j2637109920399_1_alg».proof.Proof.LibRowBias

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)
open Cert.MatProduct (prod rowOf colOf)

variable (V : (c : Dev nD) → (b : Ref sig .tc) → Buf (Elt Ideal) ((c : Thread nD τ).loc b))
open Cert.RowBias (addRow addRowMax)

theorem zeros1 : (![0, 0] : Fin 2 → Nat) = fun _ => 0 := funext fun a => by fin_cases a <;> rfl

/-- The body's one stored value is the bias row added to its loaded block, floored at zero. -/
theorem pay1 (x : Vec Ideal S10000x64 .f32) (b : Vec Ideal S1x64 .f32) :
    k1_pay1 (F := Ideal) x b = addRowMax x b (Scalar.ofBits (F := Ideal) .f32 0x00000000#32) := by
  unfold k1_pay1
  dsimp only
  exact Cert.RowBias.vec_addRowMax (R := 10000) (N := 64) x b _ _ _ _ _

/-- Where each window's block sits at point t: the row blocks move with t, the bias row stays. -/
theorem place1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function of the two arrays as the region finds them. -/
theorem wrote1 (c : Dev nD) (t : Fin cfg1.N) :
    (dat1 V c).flushed 2 t = ((cfg1.win 2).blk t).view.read (Elt Ideal) (addRowMax (V c main_v40) (V c main_v41) (Scalar.ofBits (F := Ideal) .f32 0x00000000#32)) := by
  show (cfg1.win 2).cut (grid1.coords t) ((dat1 V c).after 2 t) = _
  rw [after1_2]
  unfold out1_2
  rw [View.canon_unit_zero zeros1]
  simp only [View.ld_unit_zero (S := S10000x64) zeros1, View.ld_unit_zero (S := S1x64) zeros1]
  rw [pay1]
  obtain ⟨e0, e1, e2, e3, e4, e5⟩ := place1 t
  refine funext fun (j : S10000x64.Idx) => ?_
  show addRowMax (R := 10000) (N := 64) (iblk1 V c 0 t) (iblk1 V c 1 t) (Scalar.ofBits (F := Ideal) .f32 0x00000000#32) j
    = addRowMax (R := 100000) (N := 64) (V c main_v40) (V c main_v41) (Scalar.ofBits (F := Ideal) .f32 0x00000000#32) (((cfg1.win 2).blk t).view.emb j)
  refine Cert.RowBias.addRowMax_entry_congr (Scalar.ofBits (F := Ideal) .f32 0x00000000#32) j _ ?_ ?_
  · show V c main_v40 (((cfg1.win 0).blk t).view.emb j) = _
    refine congrArg (V c main_v40) (funext fun a => Fin.ext ?_)
    match a with
    | ⟨0, _⟩ =>
      show win1_0.index t (0 : Fin 2) * 10000 + 1 * (j 0).val = win1_2.index t (0 : Fin 2) * 10000 + 1 * (j 0).val
      rw [e0, e4]
    | ⟨1, _⟩ =>
      show win1_0.index t (1 : Fin 2) * 64 + 1 * (j 1).val = win1_2.index t (1 : Fin 2) * 64 + 1 * (j 1).val
      rw [e1, e5]
  · show V c main_v41 (((cfg1.win 1).blk t).view.emb (ix2 (0 : Fin 1) (colOf (M := 10000) (N := 64) j))) = _
    refine congrArg (V c main_v41) (funext fun a => Fin.ext ?_)
    match a with
    | ⟨0, _⟩ =>
      show win1_1.index t (0 : Fin 2) * 1 + 1 * 0 = 0
      omega
    | ⟨1, _⟩ =>
      show win1_1.index t (1 : Fin 2) * 64 + 1 * (j 1).val = win1_2.index t (1 : Fin 2) * 64 + 1 * (j 1).val
      rw [e3, e5]

/-- An index of `main_v42` is in point t's block iff each coordinate is in the block's range on its axis. -/
theorem inBlock1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v42).slice (win1_2.rect t)).set ↔ _
  rw [View.set_slice_whole, Rect.mem_set_unit]
  exact Iff.rfl

/-- Every index of `main_v42` lies in the block of the point numbered by its row divided by 10000. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 10000 < cfg1.N := lt_of_lt_of_eq (by omega : (i 0).val / 10000 < 10) N_1.symm
  obtain ⟨-, -, -, -, e4, e5⟩ := place1 ⟨(i 0).val / 10000, hN⟩
  refine ⟨⟨(i 0).val / 10000, hN⟩, flush1_2 _, ?_⟩
  rw [inBlock1]
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, hN⟩ (1 : Fin 2) * 64 ≤ (i 1).val ∧ (i 1).val < win1_2.index ⟨(i 0).val / 10000, hN⟩ (1 : Fin 2) * 64 + 64
    rw [e5]
    omega

/-- After the launch `main_v42` holds the whole-array function of the two arrays as the region found them. -/
theorem result1 (c : Dev nD) : (dat1 V c).arrAt 2 cfg1.N = addRowMax (V c main_v40) (V c main_v41) (Scalar.ofBits (F := Ideal) .f32 0x00000000#32) :=
  (dat1 V c).arrAt_eq_of_cover 2 (addRowMax (V c main_v40) (V c main_v41) (Scalar.ofBits (F := Ideal) .f32 0x00000000#32)) (fun t _ => wrote1 V c t) covered1

end Cert.KernelIdeal.Dense

end
-- ==== Proof.Region2.lean ====
/-
  Region 2: a product with a fixed matrix, computed block of rows by block of rows.

  The launch has ten grid points. Point t reads rows 10000·t … 10000·t + 9999 of the [100000, 64] array in `main_v42` and the
  whole [64, 64] matrix in `main_arg4`, multiplies them on the matrix unit into a zero accumulator (the operands narrowed to
  bf16 first, which on the extended reals changes nothing), and writes the [10000, 64] result back as rows
  10000·t … 10000·t + 9999 of `main_v43`. Row p of a product only reads row p of the left factor, so what point t writes is
  exactly that stretch of rows of the one product of the two whole arrays; the ten stretches cover every row. Hence, whatever
  the buffers hold when the region is entered (`V`), `main_v43` ends as `prod (V main_v42) (V main_arg4)`.
-/
import proofs.«182035_j2637109920399_1_alg».proof.Proof.Gen.KernelIdeal.Frame
import Idealize.ShloMosaic.Lib.Pipeline.Value
import proofs.«182035_j2637109920399_1_alg».proof.Proof.LibMatProduct
import proofs.«182035_j2637109920399_1_alg».proof.Proof.LibRowBias

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)
open Cert.MatProduct (prod rowOf colOf)

variable (V : (c : Dev nD) → (b : Ref sig .tc) → Buf (Elt Ideal) ((c : Thread nD τ).loc b))

theorem zeros2 : (![0, 0] : Fin 2 → Nat) = fun _ => 0 := funext fun a => by fin_cases a <;> rfl

/-- The body's one stored value is the product of its two loaded blocks. -/
theorem pay2 (x : Vec Ideal S10000x64 .f32) (w : Vec Ideal S64x64 .f32) : k2_pay1 (F := Ideal) x w = prod x w := by
  unfold k2_pay1
  dsimp only
  rw [shapeCast_self]
  exact Cert.MatProduct.matmul_zero_eq_prod (M := 10000) (K := 64) (N := 64) none x w

/-- Where each window's block sits at point t: the row blocks move with t, the matrix stays. -/
theorem place2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the region finds them. -/
theorem wrote2 (c : Dev nD) (t : Fin cfg2.N) :
    (dat2 V c).flushed 2 t = ((cfg2.win 2).blk t).view.read (Elt Ideal) (prod (V c main_v42) (V c main_arg4)) := by
  show (cfg2.win 2).cut (grid2.coords t) ((dat2 V c).after 2 t) = _
  rw [after2_2]
  unfold out2_2
  rw [View.canon_unit_zero zeros2]
  simp only [View.ld_unit_zero (S := S10000x64) zeros2, View.ld_unit_zero (S := S64x64) zeros2]
  rw [pay2]
  obtain ⟨e0, e1, e2, e3, e4, e5⟩ := place2 t
  refine funext fun (j : S10000x64.Idx) => ?_
  show prod (M := 10000) (K := 64) (N := 64) (iblk2 V c 0 t) (iblk2 V c 1 t) j
    = prod (M := 100000) (K := 64) (N := 64) (V c main_v42) (V c main_arg4) (((cfg2.win 2).blk t).view.emb j)
  refine Cert.RowBias.prod_entry_congr j _ (fun k => ?_) (fun k => ?_)
  · show V c main_v42 (((cfg2.win 0).blk t).view.emb (ix2 (rowOf (M := 10000) (N := 64) j) k)) = _
    refine congrArg (V c main_v42) (funext fun a => Fin.ext ?_)
    match a with
    | ⟨0, _⟩ =>
      show win2_0.index t (0 : Fin 2) * 10000 + 1 * (j 0).val = win2_2.index t (0 : Fin 2) * 10000 + 1 * (j 0).val
      rw [e0, e4]
    | ⟨1, _⟩ =>
      show win2_0.index t (1 : Fin 2) * 64 + 1 * k.val = k.val
      omega
  · show V c main_arg4 (((cfg2.win 1).blk t).view.emb (ix2 k (colOf (M := 10000) (N := 64) j))) = _
    refine congrArg (V c main_arg4) (funext fun a => Fin.ext ?_)
    match a with
    | ⟨0, _⟩ =>
      show win2_1.index t (0 : Fin 2) * 64 + 1 * k.val = k.val
      omega
    | ⟨1, _⟩ =>
      show win2_1.index t (1 : Fin 2) * 64 + 1 * (j 1).val = win2_2.index t (1 : Fin 2) * 64 + 1 * (j 1).val
      rw [e3, e5]

/-- An index of `main_v43` is in point t's block iff each coordinate is in the block's range on its axis. -/
theorem inBlock2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v43).slice (win2_2.rect t)).set ↔ _
  rw [View.set_slice_whole, Rect.mem_set_unit]
  exact Iff.rfl

/-- Every index of `main_v43` lies in the block of the point numbered by its row divided by 10000. -/
theorem covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 10000 < cfg2.N := lt_of_lt_of_eq (by omega : (i 0).val / 10000 < 10) N_2.symm
  obtain ⟨-, -, -, -, e4, e5⟩ := place2 ⟨(i 0).val / 10000, hN⟩
  refine ⟨⟨(i 0).val / 10000, hN⟩, flush2_2 _, ?_⟩
  rw [inBlock2]
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hN⟩ (1 : Fin 2) * 64 ≤ (i 1).val ∧ (i 1).val < win2_2.index ⟨(i 0).val / 10000, hN⟩ (1 : Fin 2) * 64 + 64
    rw [e5]
    omega

/-- After the launch `main_v43` holds the product of the two arrays as the region found them. -/
theorem result2 (c : Dev nD) : (dat2 V c).arrAt 2 cfg2.N = prod (V c main_v42) (V c main_arg4) :=
  (dat2 V c).arrAt_eq_of_cover 2 (prod (V c main_v42) (V c main_arg4)) (fun t _ => wrote2 V c t) covered2

end Cert.KernelIdeal.Dense

end
-- ==== Proof.Region3.lean ====
/-
  Region 3: a bias row added to every row, floored at zero, computed block of rows by block of rows.

  The launch has ten grid points. Point t reads rows 10000·t … 10000·t + 9999 of the [100000, 64] array in `main_v56` and the
  one-row array [1, 64] in `main_v57`, spreads the row down the block, adds, takes the maximum with zero, and writes the block back
  as the same rows of `main_v58`. Entry (r, c) of the result only reads entry (r, c) of the array and entry (0, c) of the row, so
  what point t writes is that stretch of rows of the one whole-array function; the ten stretches cover every row. Hence,
  whatever the buffers hold when the region is entered (`V`), `main_v58` ends as `addRowMax (V main_v56) (V main_v57) 0`.
-/
import proofs.«182035_j2637109920399_1_alg».proof.Proof.Gen.KernelIdeal.Frame
import Idealize.ShloMosaic.Lib.Pipeline.Value
import proofs.«182035_j2637109920399_1_alg».proof.Proof.LibRowBias

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)
open Cert.MatProduct (prod rowOf colOf)

variable (V : (c : Dev nD) → (b : Ref sig .tc) → Buf (Elt Ideal) ((c : Thread nD τ).loc b))
open Cert.RowBias (addRow addRowMax)

theorem zeros3 : (![0, 0] : Fin 2 → Nat) = fun _ => 0 := funext fun a => by fin_cases a <;> rfl

/-- The body's one stored value is the bias row added to its loaded block, floored at zero. -/
theorem pay3 (x : Vec Ideal S10000x64 .f32) (b : Vec Ideal S1x64 .f32) :
    k3_pay1 (F := Ideal) x b = addRowMax x b (Scalar.ofBits (F := Ideal) .f32 0x00000000#32) := by
  unfold k3_pay1
  dsimp only
  exact Cert.RowBias.vec_addRowMax (R := 10000) (N := 64) x b _ _ _ _ _

/-- Where each window's block sits at point t: the row blocks move with t, the bias row stays. -/
theorem place3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function of the two arrays as the region finds them. -/
theorem wrote3 (c : Dev nD) (t : Fin cfg3.N) :
    (dat3 V c).flushed 2 t = ((cfg3.win 2).blk t).view.read (Elt Ideal) (addRowMax (V c main_v56) (V c main_v57) (Scalar.ofBits (F := Ideal) .f32 0x00000000#32)) := by
  show (cfg3.win 2).cut (grid3.coords t) ((dat3 V c).after 2 t) = _
  rw [after3_2]
  unfold out3_2
  rw [View.canon_unit_zero zeros3]
  simp only [View.ld_unit_zero (S := S10000x64) zeros3, View.ld_unit_zero (S := S1x64) zeros3]
  rw [pay3]
  obtain ⟨e0, e1, e2, e3, e4, e5⟩ := place3 t
  refine funext fun (j : S10000x64.Idx) => ?_
  show addRowMax (R := 10000) (N := 64) (iblk3 V c 0 t) (iblk3 V c 1 t) (Scalar.ofBits (F := Ideal) .f32 0x00000000#32) j
    = addRowMax (R := 100000) (N := 64) (V c main_v56) (V c main_v57) (Scalar.ofBits (F := Ideal) .f32 0x00000000#32) (((cfg3.win 2).blk t).view.emb j)
  refine Cert.RowBias.addRowMax_entry_congr (Scalar.ofBits (F := Ideal) .f32 0x00000000#32) j _ ?_ ?_
  · show V c main_v56 (((cfg3.win 0).blk t).view.emb j) = _
    refine congrArg (V c main_v56) (funext fun a => Fin.ext ?_)
    match a with
    | ⟨0, _⟩ =>
      show win3_0.index t (0 : Fin 2) * 10000 + 1 * (j 0).val = win3_2.index t (0 : Fin 2) * 10000 + 1 * (j 0).val
      rw [e0, e4]
    | ⟨1, _⟩ =>
      show win3_0.index t (1 : Fin 2) * 64 + 1 * (j 1).val = win3_2.index t (1 : Fin 2) * 64 + 1 * (j 1).val
      rw [e1, e5]
  · show V c main_v57 (((cfg3.win 1).blk t).view.emb (ix2 (0 : Fin 1) (colOf (M := 10000) (N := 64) j))) = _
    refine congrArg (V c main_v57) (funext fun a => Fin.ext ?_)
    match a with
    | ⟨0, _⟩ =>
      show win3_1.index t (0 : Fin 2) * 1 + 1 * 0 = 0
      omega
    | ⟨1, _⟩ =>
      show win3_1.index t (1 : Fin 2) * 64 + 1 * (j 1).val = win3_2.index t (1 : Fin 2) * 64 + 1 * (j 1).val
      rw [e3, e5]

/-- An index of `main_v58` is in point t's block iff each coordinate is in the block's range on its axis. -/
theorem inBlock3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v58).slice (win3_2.rect t)).set ↔ _
  rw [View.set_slice_whole, Rect.mem_set_unit]
  exact Iff.rfl

/-- Every index of `main_v58` lies in the block of the point numbered by its row divided by 10000. -/
theorem covered3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 10000 < cfg3.N := lt_of_lt_of_eq (by omega : (i 0).val / 10000 < 10) N_3.symm
  obtain ⟨-, -, -, -, e4, e5⟩ := place3 ⟨(i 0).val / 10000, hN⟩
  refine ⟨⟨(i 0).val / 10000, hN⟩, flush3_2 _, ?_⟩
  rw [inBlock3]
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, hN⟩ (1 : Fin 2) * 64 ≤ (i 1).val ∧ (i 1).val < win3_2.index ⟨(i 0).val / 10000, hN⟩ (1 : Fin 2) * 64 + 64
    rw [e5]
    omega

/-- After the launch `main_v58` holds the whole-array function of the two arrays as the region found them. -/
theorem result3 (c : Dev nD) : (dat3 V c).arrAt 2 cfg3.N = addRowMax (V c main_v56) (V c main_v57) (Scalar.ofBits (F := Ideal) .f32 0x00000000#32) :=
  (dat3 V c).arrAt_eq_of_cover 2 (addRowMax (V c main_v56) (V c main_v57) (Scalar.ofBits (F := Ideal) .f32 0x00000000#32)) (fun t _ => wrote3 V c t) covered3

end Cert.KernelIdeal.Dense

end
-- ==== Proof.Region4.lean ====
/-
  Region 4: a product with a fixed matrix, computed block of rows by block of rows.

  The launch has ten grid points. Point t reads rows 10000·t … 10000·t + 9999 of the [100000, 64] array in `main_v58` and the
  whole [64, 1] matrix in `main_arg6`, multiplies them on the matrix unit into a zero accumulator (the operands narrowed to
  bf16 first, which on the extended reals changes nothing), and writes the [10000, 1] result back as rows
  10000·t … 10000·t + 9999 of `main_v59`. Row p of a product only reads row p of the left factor, so what point t writes is
  exactly that stretch of rows of the one product of the two whole arrays; the ten stretches cover every row. Hence, whatever
  the buffers hold when the region is entered (`V`), `main_v59` ends as `prod (V main_v58) (V main_arg6)`.
-/
import proofs.«182035_j2637109920399_1_alg».proof.Proof.Gen.KernelIdeal.Frame
import Idealize.ShloMosaic.Lib.Pipeline.Value
import proofs.«182035_j2637109920399_1_alg».proof.Proof.LibMatProduct
import proofs.«182035_j2637109920399_1_alg».proof.Proof.LibRowBias

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)
open Cert.MatProduct (prod rowOf colOf)

variable (V : (c : Dev nD) → (b : Ref sig .tc) → Buf (Elt Ideal) ((c : Thread nD τ).loc b))

theorem zeros4 : (![0, 0] : Fin 2 → Nat) = fun _ => 0 := funext fun a => by fin_cases a <;> rfl

/-- The body's one stored value is the product of its two loaded blocks. -/
theorem pay4 (x : Vec Ideal S10000x64 .f32) (w : Vec Ideal S64x1 .f32) : k4_pay1 (F := Ideal) x w = prod x w := by
  unfold k4_pay1
  dsimp only
  rw [shapeCast_self]
  exact Cert.MatProduct.matmul_zero_eq_prod (M := 10000) (K := 64) (N := 1) none x w

/-- Where each window's block sits at point t: the row blocks move with t, the matrix stays. -/
theorem place4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two arrays as the region finds them. -/
theorem wrote4 (c : Dev nD) (t : Fin cfg4.N) :
    (dat4 V c).flushed 2 t = ((cfg4.win 2).blk t).view.read (Elt Ideal) (prod (V c main_v58) (V c main_arg6)) := by
  show (cfg4.win 2).cut (grid4.coords t) ((dat4 V c).after 2 t) = _
  rw [after4_2]
  unfold out4_2
  rw [View.canon_unit_zero zeros4]
  simp only [View.ld_unit_zero (S := S10000x64) zeros4, View.ld_unit_zero (S := S64x1) zeros4]
  rw [pay4]
  obtain ⟨e0, e1, e2, e3, e4, e5⟩ := place4 t
  refine funext fun (j : S10000x1.Idx) => ?_
  show prod (M := 10000) (K := 64) (N := 1) (iblk4 V c 0 t) (iblk4 V c 1 t) j
    = prod (M := 100000) (K := 64) (N := 1) (V c main_v58) (V c main_arg6) (((cfg4.win 2).blk t).view.emb j)
  refine Cert.RowBias.prod_entry_congr j _ (fun k => ?_) (fun k => ?_)
  · show V c main_v58 (((cfg4.win 0).blk t).view.emb (ix2 (rowOf (M := 10000) (N := 1) j) k)) = _
    refine congrArg (V c main_v58) (funext fun a => Fin.ext ?_)
    match a with
    | ⟨0, _⟩ =>
      show win4_0.index t (0 : Fin 2) * 10000 + 1 * (j 0).val = win4_2.index t (0 : Fin 2) * 10000 + 1 * (j 0).val
      rw [e0, e4]
    | ⟨1, _⟩ =>
      show win4_0.index t (1 : Fin 2) * 64 + 1 * k.val = k.val
      omega
  · show V c main_arg6 (((cfg4.win 1).blk t).view.emb (ix2 k (colOf (M := 10000) (N := 1) j))) = _
    refine congrArg (V c main_arg6) (funext fun a => Fin.ext ?_)
    match a with
    | ⟨0, _⟩ =>
      show win4_1.index t (0 : Fin 2) * 64 + 1 * k.val = k.val
      omega
    | ⟨1, _⟩ =>
      show win4_1.index t (1 : Fin 2) * 1 + 1 * (j 1).val = win4_2.index t (1 : Fin 2) * 1 + 1 * (j 1).val
      rw [e3, e5]

/-- An index of `main_v59` is in point t's block iff each coordinate is in the block's range on its axis. -/
theorem inBlock4 (t : Fin cfg4.N) (i : S100000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v59).slice (win4_2.rect t)).set ↔ _
  rw [View.set_slice_whole, Rect.mem_set_unit]
  exact Iff.rfl

/-- Every index of `main_v59` lies in the block of the point numbered by its row divided by 10000. -/
theorem covered4 (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  have hN : (i 0).val / 10000 < cfg4.N := lt_of_lt_of_eq (by omega : (i 0).val / 10000 < 10) N_4.symm
  obtain ⟨-, -, -, -, e4, e5⟩ := place4 ⟨(i 0).val / 10000, hN⟩
  refine ⟨⟨(i 0).val / 10000, hN⟩, flush4_2 _, ?_⟩
  rw [inBlock4]
  intro a
  match a with
  | ⟨0, _⟩ =>
    show win4_2.index ⟨(i 0).val / 10000, hN⟩ (0 : Fin 2) * 10000 ≤ (i 0).val ∧ (i 0).val < win4_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win4_2.index ⟨(i 0).val / 10000, hN⟩ (1 : Fin 2) * 1 ≤ (i 1).val ∧ (i 1).val < win4_2.index ⟨(i 0).val / 10000, hN⟩ (1 : Fin 2) * 1 + 1
    rw [e5]
    omega

/-- After the launch `main_v59` holds the product of the two arrays as the region found them. -/
theorem result4 (c : Dev nD) : (dat4 V c).arrAt 2 cfg4.N = prod (V c main_v58) (V c main_arg6) :=
  (dat4 V c).arrAt_eq_of_cover 2 (prod (V c main_v58) (V c main_arg6)) (fun t _ => wrote4 V c t) covered4

end Cert.KernelIdeal.Dense

end
-- ==== Proof.Region5.lean ====
/-
  Region 5: a bias row added to every row, computed block of rows by block of rows.

  The launch has ten grid points. Point t reads rows 10000·t … 10000·t + 9999 of the [100000, 1] array in `main_v71` and the
  one-row array [1, 1] in `main_v72`, spreads the row down the block, adds, and writes the block back
  as the same rows of `main_v73`. Entry (r, c) of the result only reads entry (r, c) of the array and entry (0, c) of the row, so
  what point t writes is that stretch of rows of the one whole-array function; the ten stretches cover every row. Hence,
  whatever the buffers hold when the region is entered (`V`), `main_v73` ends as `addRow (V main_v71) (V main_v72)`.
-/
import proofs.«182035_j2637109920399_1_alg».proof.Proof.Gen.KernelIdeal.Frame
import Idealize.ShloMosaic.Lib.Pipeline.Value
import proofs.«182035_j2637109920399_1_alg».proof.Proof.LibRowBias

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)
open Cert.MatProduct (prod rowOf colOf)

variable (V : (c : Dev nD) → (b : Ref sig .tc) → Buf (Elt Ideal) ((c : Thread nD τ).loc b))
open Cert.RowBias (addRow addRowMax)

theorem zeros5 : (![0, 0] : Fin 2 → Nat) = fun _ => 0 := funext fun a => by fin_cases a <;> rfl

/-- The body's one stored value is the bias row added to its loaded block. -/
theorem pay5 (x : Vec Ideal S10000x1 .f32) (b : Vec Ideal S1x1 .f32) :
    k5_pay1 (F := Ideal) x b = addRow x b := by
  unfold k5_pay1
  dsimp only
  exact Cert.RowBias.vec_addRow (R := 10000) (N := 1) x b _ _ _ _

/-- Where each window's block sits at point t: the row blocks move with t, the bias row stays. -/
theorem place5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole-array function of the two arrays as the region finds them. -/
theorem wrote5 (c : Dev nD) (t : Fin cfg5.N) :
    (dat5 V c).flushed 2 t = ((cfg5.win 2).blk t).view.read (Elt Ideal) (addRow (V c main_v71) (V c main_v72)) := by
  show (cfg5.win 2).cut (grid5.coords t) ((dat5 V c).after 2 t) = _
  rw [after5_2]
  unfold out5_2
  rw [View.canon_unit_zero zeros5]
  simp only [View.ld_unit_zero (S := S10000x1) zeros5, View.ld_unit_zero (S := S1x1) zeros5]
  rw [pay5]
  obtain ⟨e0, e1, e2, e3, e4, e5⟩ := place5 t
  refine funext fun (j : S10000x1.Idx) => ?_
  show addRow (R := 10000) (N := 1) (iblk5 V c 0 t) (iblk5 V c 1 t) j
    = addRow (R := 100000) (N := 1) (V c main_v71) (V c main_v72) (((cfg5.win 2).blk t).view.emb j)
  refine Cert.RowBias.addRow_entry_congr j _ ?_ ?_
  · show V c main_v71 (((cfg5.win 0).blk t).view.emb j) = _
    refine congrArg (V c main_v71) (funext fun a => Fin.ext ?_)
    match a with
    | ⟨0, _⟩ =>
      show win5_0.index t (0 : Fin 2) * 10000 + 1 * (j 0).val = win5_2.index t (0 : Fin 2) * 10000 + 1 * (j 0).val
      rw [e0, e4]
    | ⟨1, _⟩ =>
      show win5_0.index t (1 : Fin 2) * 1 + 1 * (j 1).val = win5_2.index t (1 : Fin 2) * 1 + 1 * (j 1).val
      rw [e1, e5]
  · show V c main_v72 (((cfg5.win 1).blk t).view.emb (ix2 (0 : Fin 1) (colOf (M := 10000) (N := 1) j))) = _
    refine congrArg (V c main_v72) (funext fun a => Fin.ext ?_)
    match a with
    | ⟨0, _⟩ =>
      show win5_1.index t (0 : Fin 2) * 1 + 1 * 0 = 0
      omega
    | ⟨1, _⟩ =>
      show win5_1.index t (1 : Fin 2) * 1 + 1 * (j 1).val = win5_2.index t (1 : Fin 2) * 1 + 1 * (j 1).val
      rw [e3, e5]

/-- An index of `main_v73` is in point t's block iff each coordinate is in the block's range on its axis. -/
theorem inBlock5 (t : Fin cfg5.N) (i : S100000x1.Idx) :
    i ∈ ((cfg5.win 2).blk t).view.set ↔ ∀ a : Fin 2, win5_2.index t a * S10000x1.size a ≤ (i a).val ∧ (i a).val < win5_2.index t a * S10000x1.size a + S10000x1.size a := by
  show i ∈ ((View.whole main_v73).slice (win5_2.rect t)).set ↔ _
  rw [View.set_slice_whole, Rect.mem_set_unit]
  exact Iff.rfl

/-- Every index of `main_v73` lies in the block of the point numbered by its row divided by 10000. -/
theorem covered5 (i : S100000x1.Idx) :
    ∃ t : Fin cfg5.N, (cfg5.win 2).flush t = true ∧ i ∈ ((cfg5.win 2).blk t).view.set := by
  have hi0 : (i 0).val < 100000 := (i 0).isLt
  have hi1 : (i 1).val < 1 := (i 1).isLt
  have hN : (i 0).val / 10000 < cfg5.N := lt_of_lt_of_eq (by omega : (i 0).val / 10000 < 10) N_5.symm
  obtain ⟨-, -, -, -, e4, e5⟩ := place5 ⟨(i 0).val / 10000, hN⟩
  refine ⟨⟨(i 0).val / 10000, hN⟩, flush5_2 _, ?_⟩
  rw [inBlock5]
  intro a
  match a with
  | ⟨0, _⟩ =>
    show win5_2.index ⟨(i 0).val / 10000, hN⟩ (0 : Fin 2) * 10000 ≤ (i 0).val ∧ (i 0).val < win5_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win5_2.index ⟨(i 0).val / 10000, hN⟩ (1 : Fin 2) * 1 ≤ (i 1).val ∧ (i 1).val < win5_2.index ⟨(i 0).val / 10000, hN⟩ (1 : Fin 2) * 1 + 1
    rw [e5]
    omega

/-- After the launch `main_v73` holds the whole-array function of the two arrays as the region found them. -/
theorem result5 (c : Dev nD) : (dat5 V c).arrAt 2 cfg5.N = addRow (V c main_v71) (V c main_v72) :=
  (dat5 V c).arrAt_eq_of_cover 2 (addRow (V c main_v71) (V c main_v72)) (fun t _ => wrote5 V c t) covered5

end Cert.KernelIdeal.Dense

end
-- ==== Proof.Region6.lean ====
/-
  Region 6: a product with a fixed matrix, computed block of rows by block of rows.

  The launch has ten grid points. Point t reads rows 10000·t … 10000·t + 9999 of the [100000, 1] array in `main_v73` and the
  whole [1, 64] matrix in `main_arg8`, multiplies them on the matrix unit into a zero accumulator (the operands narrowed to
  bf16 first, which on the extended reals changes nothing), and writes the [10000, 64] result back as rows
  10000·t … 10000·t + 9999 of `main_v74`. Row p of a product only reads row p of the left factor, so what point t writes is
  exactly that stretch of rows of the one product of the two whole arrays; the ten stretches cover every row. Hence, whatever
  the buffers hold when the region is entered (`V`), `main_v74` ends as `prod (V main_v73) (V main_arg8)`.
-/
import proofs.«182035_j2637109920399_1_alg».proof.Proof.Gen.KernelIdeal.Frame
import Idealize.ShloMosaic.Lib.Pipeline.Value
import proofs.«182035_j2637109920399_1_alg».proof.Proof.LibMatProduct
import proofs.«182035_j2637109920399_1_alg».proof.Proof.LibRowBias

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)
open Cert.MatProduct (prod rowOf colOf)

variable (V : (c : Dev nD) → (b : Ref sig .tc) → Buf (Elt Ideal) ((c : Thread nD τ).loc b))

theorem zeros6 : (![0, 0] : Fin 2 → Nat) = fun _ => 0 := funext fun a => by fin_cases a <;> rfl

/-- The body's one stored value is the product of its two loaded blocks. -/
theorem pay6 (x : Vec Ideal S10000x1 .f32) (w : Vec Ideal S1x64 .f32) : k6_pay1 (F := Ideal) x w = prod x w := by
  unfold k6_pay1
  dsimp only
  rw [shapeCast_self]
  exact Cert.MatProduct.matmul_zero_eq_prod (M := 10000) (K := 1) (N := 64) none x w

/-- Where each window's block sits at point t: the row blocks move with t, the matrix stays. -/
theorem place6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the two arrays as the region finds them. -/
theorem wrote6 (c : Dev nD) (t : Fin cfg6.N) :
    (dat6 V c).flushed 2 t = ((cfg6.win 2).blk t).view.read (Elt Ideal) (prod (V c main_v73) (V c main_arg8)) := by
  show (cfg6.win 2).cut (grid6.coords t) ((dat6 V c).after 2 t) = _
  rw [after6_2]
  unfold out6_2
  rw [View.canon_unit_zero zeros6]
  simp only [View.ld_unit_zero (S := S10000x1) zeros6, View.ld_unit_zero (S := S1x64) zeros6]
  rw [pay6]
  obtain ⟨e0, e1, e2, e3, e4, e5⟩ := place6 t
  refine funext fun (j : S10000x64.Idx) => ?_
  show prod (M := 10000) (K := 1) (N := 64) (iblk6 V c 0 t) (iblk6 V c 1 t) j
    = prod (M := 100000) (K := 1) (N := 64) (V c main_v73) (V c main_arg8) (((cfg6.win 2).blk t).view.emb j)
  refine Cert.RowBias.prod_entry_congr j _ (fun k => ?_) (fun k => ?_)
  · show V c main_v73 (((cfg6.win 0).blk t).view.emb (ix2 (rowOf (M := 10000) (N := 64) j) k)) = _
    refine congrArg (V c main_v73) (funext fun a => Fin.ext ?_)
    match a with
    | ⟨0, _⟩ =>
      show win6_0.index t (0 : Fin 2) * 10000 + 1 * (j 0).val = win6_2.index t (0 : Fin 2) * 10000 + 1 * (j 0).val
      rw [e0, e4]
    | ⟨1, _⟩ =>
      show win6_0.index t (1 : Fin 2) * 1 + 1 * k.val = k.val
      omega
  · show V c main_arg8 (((cfg6.win 1).blk t).view.emb (ix2 k (colOf (M := 10000) (N := 64) j))) = _
    refine congrArg (V c main_arg8) (funext fun a => Fin.ext ?_)
    match a with
    | ⟨0, _⟩ =>
      show win6_1.index t (0 : Fin 2) * 1 + 1 * k.val = k.val
      omega
    | ⟨1, _⟩ =>
      show win6_1.index t (1 : Fin 2) * 64 + 1 * (j 1).val = win6_2.index t (1 : Fin 2) * 64 + 1 * (j 1).val
      rw [e3, e5]

/-- An index of `main_v74` is in point t's block iff each coordinate is in the block's range on its axis. -/
theorem inBlock6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v74).slice (win6_2.rect t)).set ↔ _
  rw [View.set_slice_whole, Rect.mem_set_unit]
  exact Iff.rfl

/-- Every index of `main_v74` lies in the block of the point numbered by its row divided by 10000. -/
theorem covered6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hN : (i 0).val / 10000 < cfg6.N := lt_of_lt_of_eq (by omega : (i 0).val / 10000 < 10) N_6.symm
  obtain ⟨-, -, -, -, e4, e5⟩ := place6 ⟨(i 0).val / 10000, hN⟩
  refine ⟨⟨(i 0).val / 10000, hN⟩, flush6_2 _, ?_⟩
  rw [inBlock6]
  intro a
  match a with
  | ⟨0, _⟩ =>
    show win6_2.index ⟨(i 0).val / 10000, hN⟩ (0 : Fin 2) * 10000 ≤ (i 0).val ∧ (i 0).val < win6_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win6_2.index ⟨(i 0).val / 10000, hN⟩ (1 : Fin 2) * 64 ≤ (i 1).val ∧ (i 1).val < win6_2.index ⟨(i 0).val / 10000, hN⟩ (1 : Fin 2) * 64 + 64
    rw [e5]
    omega

/-- After the launch `main_v74` holds the product of the two arrays as the region found them. -/
theorem result6 (c : Dev nD) : (dat6 V c).arrAt 2 cfg6.N = prod (V c main_v73) (V c main_arg8) :=
  (dat6 V c).arrAt_eq_of_cover 2 (prod (V c main_v73) (V c main_arg8)) (fun t _ => wrote6 V c t) covered6

end Cert.KernelIdeal.Dense

end
-- ==== Proof.Region7.lean ====
/-
  Region 7: a bias row added to every row, floored at zero, computed block of rows by block of rows.

  The launch has ten grid points. Point t reads rows 10000·t … 10000·t + 9999 of the [100000, 64] array in `main_v74` and the
  one-row array [1, 64] in `main_v75`, spreads the row down the block, adds, takes the maximum with zero, and writes the block back
  as the same rows of `main_v76`. Entry (r, c) of the result only reads entry (r, c) of the array and entry (0, c) of the row, so
  what point t writes is that stretch of rows of the one whole-array function; the ten stretches cover every row. Hence,
  whatever the buffers hold when the region is entered (`V`), `main_v76` ends as `addRowMax (V main_v74) (V main_v75) 0`.
-/
import proofs.«182035_j2637109920399_1_alg».proof.Proof.Gen.KernelIdeal.Frame
import Idealize.ShloMosaic.Lib.Pipeline.Value
import proofs.«182035_j2637109920399_1_alg».proof.Proof.LibRowBias

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)
open Cert.MatProduct (prod rowOf colOf)

variable (V : (c : Dev nD) → (b : Ref sig .tc) → Buf (Elt Ideal) ((c : Thread nD τ).loc b))
open Cert.RowBias (addRow addRowMax)

theorem zeros7 : (![0, 0] : Fin 2 → Nat) = fun _ => 0 := funext fun a => by fin_cases a <;> rfl

/-- The body's one stored value is the bias row added to its loaded block, floored at zero. -/
theorem pay7 (x : Vec Ideal S10000x64 .f32) (b : Vec Ideal S1x64 .f32) :
    k7_pay1 (F := Ideal) x b = addRowMax x b (Scalar.ofBits (F := Ideal) .f32 0x00000000#32) := by
  unfold k7_pay1
  dsimp only
  exact Cert.RowBias.vec_addRowMax (R := 10000) (N := 64) x b _ _ _ _ _

/-- Where each window's block sits at point t: the row blocks move with t, the bias row stays. -/
theorem place7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the whole-array function of the two arrays as the region finds them. -/
theorem wrote7 (c : Dev nD) (t : Fin cfg7.N) :
    (dat7 V c).flushed 2 t = ((cfg7.win 2).blk t).view.read (Elt Ideal) (addRowMax (V c main_v74) (V c main_v75) (Scalar.ofBits (F := Ideal) .f32 0x00000000#32)) := by
  show (cfg7.win 2).cut (grid7.coords t) ((dat7 V c).after 2 t) = _
  rw [after7_2]
  unfold out7_2
  rw [View.canon_unit_zero zeros7]
  simp only [View.ld_unit_zero (S := S10000x64) zeros7, View.ld_unit_zero (S := S1x64) zeros7]
  rw [pay7]
  obtain ⟨e0, e1, e2, e3, e4, e5⟩ := place7 t
  refine funext fun (j : S10000x64.Idx) => ?_
  show addRowMax (R := 10000) (N := 64) (iblk7 V c 0 t) (iblk7 V c 1 t) (Scalar.ofBits (F := Ideal) .f32 0x00000000#32) j
    = addRowMax (R := 100000) (N := 64) (V c main_v74) (V c main_v75) (Scalar.ofBits (F := Ideal) .f32 0x00000000#32) (((cfg7.win 2).blk t).view.emb j)
  refine Cert.RowBias.addRowMax_entry_congr (Scalar.ofBits (F := Ideal) .f32 0x00000000#32) j _ ?_ ?_
  · show V c main_v74 (((cfg7.win 0).blk t).view.emb j) = _
    refine congrArg (V c main_v74) (funext fun a => Fin.ext ?_)
    match a with
    | ⟨0, _⟩ =>
      show win7_0.index t (0 : Fin 2) * 10000 + 1 * (j 0).val = win7_2.index t (0 : Fin 2) * 10000 + 1 * (j 0).val
      rw [e0, e4]
    | ⟨1, _⟩ =>
      show win7_0.index t (1 : Fin 2) * 64 + 1 * (j 1).val = win7_2.index t (1 : Fin 2) * 64 + 1 * (j 1).val
      rw [e1, e5]
  · show V c main_v75 (((cfg7.win 1).blk t).view.emb (ix2 (0 : Fin 1) (colOf (M := 10000) (N := 64) j))) = _
    refine congrArg (V c main_v75) (funext fun a => Fin.ext ?_)
    match a with
    | ⟨0, _⟩ =>
      show win7_1.index t (0 : Fin 2) * 1 + 1 * 0 = 0
      omega
    | ⟨1, _⟩ =>
      show win7_1.index t (1 : Fin 2) * 64 + 1 * (j 1).val = win7_2.index t (1 : Fin 2) * 64 + 1 * (j 1).val
      rw [e3, e5]

/-- An index of `main_v76` is in point t's block iff each coordinate is in the block's range on its axis. -/
theorem inBlock7 (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v76).slice (win7_2.rect t)).set ↔ _
  rw [View.set_slice_whole, Rect.mem_set_unit]
  exact Iff.rfl

/-- Every index of `main_v76` lies in the block of the point numbered by its row divided by 10000. -/
theorem covered7 (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have hN : (i 0).val / 10000 < cfg7.N := lt_of_lt_of_eq (by omega : (i 0).val / 10000 < 10) N_7.symm
  obtain ⟨-, -, -, -, e4, e5⟩ := place7 ⟨(i 0).val / 10000, hN⟩
  refine ⟨⟨(i 0).val / 10000, hN⟩, flush7_2 _, ?_⟩
  rw [inBlock7]
  intro a
  match a with
  | ⟨0, _⟩ =>
    show win7_2.index ⟨(i 0).val / 10000, hN⟩ (0 : Fin 2) * 10000 ≤ (i 0).val ∧ (i 0).val < win7_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win7_2.index ⟨(i 0).val / 10000, hN⟩ (1 : Fin 2) * 64 ≤ (i 1).val ∧ (i 1).val < win7_2.index ⟨(i 0).val / 10000, hN⟩ (1 : Fin 2) * 64 + 64
    rw [e5]
    omega

/-- After the launch `main_v76` holds the whole-array function of the two arrays as the region found them. -/
theorem result7 (c : Dev nD) : (dat7 V c).arrAt 2 cfg7.N = addRowMax (V c main_v74) (V c main_v75) (Scalar.ofBits (F := Ideal) .f32 0x00000000#32) :=
  (dat7 V c).arrAt_eq_of_cover 2 (addRowMax (V c main_v74) (V c main_v75) (Scalar.ofBits (F := Ideal) .f32 0x00000000#32)) (fun t _ => wrote7 V c t) covered7

end Cert.KernelIdeal.Dense

end
-- ==== Proof.Region8.lean ====
/-
  Region 8: a product with a fixed matrix, computed block of rows by block of rows.

  The launch has ten grid points. Point t reads rows 10000·t … 10000·t + 9999 of the [100000, 64] array in `main_v76` and the
  whole [64, 1] matrix in `main_arg10`, multiplies them on the matrix unit into a zero accumulator (the operands narrowed to
  bf16 first, which on the extended reals changes nothing), and writes the [10000, 1] result back as rows
  10000·t … 10000·t + 9999 of `main_v77`. Row p of a product only reads row p of the left factor, so what point t writes is
  exactly that stretch of rows of the one product of the two whole arrays; the ten stretches cover every row. Hence, whatever
  the buffers hold when the region is entered (`V`), `main_v77` ends as `prod (V main_v76) (V main_arg10)`.
-/
import proofs.«182035_j2637109920399_1_alg».proof.Proof.Gen.KernelIdeal.Frame
import Idealize.ShloMosaic.Lib.Pipeline.Value
import proofs.«182035_j2637109920399_1_alg».proof.Proof.LibMatProduct
import proofs.«182035_j2637109920399_1_alg».proof.Proof.LibRowBias

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)
open Cert.MatProduct (prod rowOf colOf)

variable (V : (c : Dev nD) → (b : Ref sig .tc) → Buf (Elt Ideal) ((c : Thread nD τ).loc b))

theorem zeros8 : (![0, 0] : Fin 2 → Nat) = fun _ => 0 := funext fun a => by fin_cases a <;> rfl

/-- The body's one stored value is the product of its two loaded blocks. -/
theorem pay8 (x : Vec Ideal S10000x64 .f32) (w : Vec Ideal S64x1 .f32) : k8_pay1 (F := Ideal) x w = prod x w := by
  unfold k8_pay1
  dsimp only
  rw [shapeCast_self]
  exact Cert.MatProduct.matmul_zero_eq_prod (M := 10000) (K := 64) (N := 1) none x w

/-- Where each window's block sits at point t: the row blocks move with t, the matrix stays. -/
theorem place8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the product of the two arrays as the region finds them. -/
theorem wrote8 (c : Dev nD) (t : Fin cfg8.N) :
    (dat8 V c).flushed 2 t = ((cfg8.win 2).blk t).view.read (Elt Ideal) (prod (V c main_v76) (V c main_arg10)) := by
  show (cfg8.win 2).cut (grid8.coords t) ((dat8 V c).after 2 t) = _
  rw [after8_2]
  unfold out8_2
  rw [View.canon_unit_zero zeros8]
  simp only [View.ld_unit_zero (S := S10000x64) zeros8, View.ld_unit_zero (S := S64x1) zeros8]
  rw [pay8]
  obtain ⟨e0, e1, e2, e3, e4, e5⟩ := place8 t
  refine funext fun (j : S10000x1.Idx) => ?_
  show prod (M := 10000) (K := 64) (N := 1) (iblk8 V c 0 t) (iblk8 V c 1 t) j
    = prod (M := 100000) (K := 64) (N := 1) (V c main_v76) (V c main_arg10) (((cfg8.win 2).blk t).view.emb j)
  refine Cert.RowBias.prod_entry_congr j _ (fun k => ?_) (fun k => ?_)
  · show V c main_v76 (((cfg8.win 0).blk t).view.emb (ix2 (rowOf (M := 10000) (N := 1) j) k)) = _
    refine congrArg (V c main_v76) (funext fun a => Fin.ext ?_)
    match a with
    | ⟨0, _⟩ =>
      show win8_0.index t (0 : Fin 2) * 10000 + 1 * (j 0).val = win8_2.index t (0 : Fin 2) * 10000 + 1 * (j 0).val
      rw [e0, e4]
    | ⟨1, _⟩ =>
      show win8_0.index t (1 : Fin 2) * 64 + 1 * k.val = k.val
      omega
  · show V c main_arg10 (((cfg8.win 1).blk t).view.emb (ix2 k (colOf (M := 10000) (N := 1) j))) = _
    refine congrArg (V c main_arg10) (funext fun a => Fin.ext ?_)
    match a with
    | ⟨0, _⟩ =>
      show win8_1.index t (0 : Fin 2) * 64 + 1 * k.val = k.val
      omega
    | ⟨1, _⟩ =>
      show win8_1.index t (1 : Fin 2) * 1 + 1 * (j 1).val = win8_2.index t (1 : Fin 2) * 1 + 1 * (j 1).val
      rw [e3, e5]

/-- An index of `main_v77` is in point t's block iff each coordinate is in the block's range on its axis. -/
theorem inBlock8 (t : Fin cfg8.N) (i : S100000x1.Idx) :
    i ∈ ((cfg8.win 2).blk t).view.set ↔ ∀ a : Fin 2, win8_2.index t a * S10000x1.size a ≤ (i a).val ∧ (i a).val < win8_2.index t a * S10000x1.size a + S10000x1.size a := by
  show i ∈ ((View.whole main_v77).slice (win8_2.rect t)).set ↔ _
  rw [View.set_slice_whole, Rect.mem_set_unit]
  exact Iff.rfl

/-- Every index of `main_v77` lies in the block of the point numbered by its row divided by 10000. -/
theorem covered8 (i : S100000x1.Idx) :
    ∃ t : Fin cfg8.N, (cfg8.win 2).flush t = true ∧ i ∈ ((cfg8.win 2).blk t).view.set := by
  have hi0 : (i 0).val < 100000 := (i 0).isLt
  have hi1 : (i 1).val < 1 := (i 1).isLt
  have hN : (i 0).val / 10000 < cfg8.N := lt_of_lt_of_eq (by omega : (i 0).val / 10000 < 10) N_8.symm
  obtain ⟨-, -, -, -, e4, e5⟩ := place8 ⟨(i 0).val / 10000, hN⟩
  refine ⟨⟨(i 0).val / 10000, hN⟩, flush8_2 _, ?_⟩
  rw [inBlock8]
  intro a
  match a with
  | ⟨0, _⟩ =>
    show win8_2.index ⟨(i 0).val / 10000, hN⟩ (0 : Fin 2) * 10000 ≤ (i 0).val ∧ (i 0).val < win8_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win8_2.index ⟨(i 0).val / 10000, hN⟩ (1 : Fin 2) * 1 ≤ (i 1).val ∧ (i 1).val < win8_2.index ⟨(i 0).val / 10000, hN⟩ (1 : Fin 2) * 1 + 1
    rw [e5]
    omega

/-- After the launch `main_v77` holds the product of the two arrays as the region found them. -/
theorem result8 (c : Dev nD) : (dat8 V c).arrAt 2 cfg8.N = prod (V c main_v76) (V c main_arg10) :=
  (dat8 V c).arrAt_eq_of_cover 2 (prod (V c main_v76) (V c main_arg10)) (fun t _ => wrote8 V c t) covered8

end Cert.KernelIdeal.Dense

end
-- ==== Proof.Region9.lean ====
/-
  Region 9: a bias row added to every row, computed block of rows by block of rows.

  The launch has ten grid points. Point t reads rows 10000·t … 10000·t + 9999 of the [100000, 1] array in `main_v77` and the
  one-row array [1, 1] in `main_v78`, spreads the row down the block, adds, and writes the block back
  as the same rows of `main_v79`. Entry (r, c) of the result only reads entry (r, c) of the array and entry (0, c) of the row, so
  what point t writes is that stretch of rows of the one whole-array function; the ten stretches cover every row. Hence,
  whatever the buffers hold when the region is entered (`V`), `main_v79` ends as `addRow (V main_v77) (V main_v78)`.
-/
import proofs.«182035_j2637109920399_1_alg».proof.Proof.Gen.KernelIdeal.Frame
import Idealize.ShloMosaic.Lib.Pipeline.Value
import proofs.«182035_j2637109920399_1_alg».proof.Proof.LibRowBias

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)
open Cert.MatProduct (prod rowOf colOf)

variable (V : (c : Dev nD) → (b : Ref sig .tc) → Buf (Elt Ideal) ((c : Thread nD τ).loc b))
open Cert.RowBias (addRow addRowMax)

theorem zeros9 : (![0, 0] : Fin 2 → Nat) = fun _ => 0 := funext fun a => by fin_cases a <;> rfl

/-- The body's one stored value is the bias row added to its loaded block. -/
theorem pay9 (x : Vec Ideal S10000x1 .f32) (b : Vec Ideal S1x1 .f32) :
    k9_pay1 (F := Ideal) x b = addRow x b := by
  unfold k9_pay1
  dsimp only
  exact Cert.RowBias.vec_addRow (R := 10000) (N := 1) x b _ _ _ _

/-- Where each window's block sits at point t: the row blocks move with t, the bias row stays. -/
theorem place9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point t writes back is block t of the whole-array function of the two arrays as the region finds them. -/
theorem wrote9 (c : Dev nD) (t : Fin cfg9.N) :
    (dat9 V c).flushed 2 t = ((cfg9.win 2).blk t).view.read (Elt Ideal) (addRow (V c main_v77) (V c main_v78)) := by
  show (cfg9.win 2).cut (grid9.coords t) ((dat9 V c).after 2 t) = _
  rw [after9_2]
  unfold out9_2
  rw [View.canon_unit_zero zeros9]
  simp only [View.ld_unit_zero (S := S10000x1) zeros9, View.ld_unit_zero (S := S1x1) zeros9]
  rw [pay9]
  obtain ⟨e0, e1, e2, e3, e4, e5⟩ := place9 t
  refine funext fun (j : S10000x1.Idx) => ?_
  show addRow (R := 10000) (N := 1) (iblk9 V c 0 t) (iblk9 V c 1 t) j
    = addRow (R := 100000) (N := 1) (V c main_v77) (V c main_v78) (((cfg9.win 2).blk t).view.emb j)
  refine Cert.RowBias.addRow_entry_congr j _ ?_ ?_
  · show V c main_v77 (((cfg9.win 0).blk t).view.emb j) = _
    refine congrArg (V c main_v77) (funext fun a => Fin.ext ?_)
    match a with
    | ⟨0, _⟩ =>
      show win9_0.index t (0 : Fin 2) * 10000 + 1 * (j 0).val = win9_2.index t (0 : Fin 2) * 10000 + 1 * (j 0).val
      rw [e0, e4]
    | ⟨1, _⟩ =>
      show win9_0.index t (1 : Fin 2) * 1 + 1 * (j 1).val = win9_2.index t (1 : Fin 2) * 1 + 1 * (j 1).val
      rw [e1, e5]
  · show V c main_v78 (((cfg9.win 1).blk t).view.emb (ix2 (0 : Fin 1) (colOf (M := 10000) (N := 1) j))) = _
    refine congrArg (V c main_v78) (funext fun a => Fin.ext ?_)
    match a with
    | ⟨0, _⟩ =>
      show win9_1.index t (0 : Fin 2) * 1 + 1 * 0 = 0
      omega
    | ⟨1, _⟩ =>
      show win9_1.index t (1 : Fin 2) * 1 + 1 * (j 1).val = win9_2.index t (1 : Fin 2) * 1 + 1 * (j 1).val
      rw [e3, e5]

/-- An index of `main_v79` is in point t's block iff each coordinate is in the block's range on its axis. -/
theorem inBlock9 (t : Fin cfg9.N) (i : S100000x1.Idx) :
    i ∈ ((cfg9.win 2).blk t).view.set ↔ ∀ a : Fin 2, win9_2.index t a * S10000x1.size a ≤ (i a).val ∧ (i a).val < win9_2.index t a * S10000x1.size a + S10000x1.size a := by
  show i ∈ ((View.whole main_v79).slice (win9_2.rect t)).set ↔ _
  rw [View.set_slice_whole, Rect.mem_set_unit]
  exact Iff.rfl

/-- Every index of `main_v79` lies in the block of the point numbered by its row divided by 10000. -/
theorem covered9 (i : S100000x1.Idx) :
    ∃ t : Fin cfg9.N, (cfg9.win 2).flush t = true ∧ i ∈ ((cfg9.win 2).blk t).view.set := by
  have hi0 : (i 0).val < 100000 := (i 0).isLt
  have hi1 : (i 1).val < 1 := (i 1).isLt
  have hN : (i 0).val / 10000 < cfg9.N := lt_of_lt_of_eq (by omega : (i 0).val / 10000 < 10) N_9.symm
  obtain ⟨-, -, -, -, e4, e5⟩ := place9 ⟨(i 0).val / 10000, hN⟩
  refine ⟨⟨(i 0).val / 10000, hN⟩, flush9_2 _, ?_⟩
  rw [inBlock9]
  intro a
  match a with
  | ⟨0, _⟩ =>
    show win9_2.index ⟨(i 0).val / 10000, hN⟩ (0 : Fin 2) * 10000 ≤ (i 0).val ∧ (i 0).val < win9_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win9_2.index ⟨(i 0).val / 10000, hN⟩ (1 : Fin 2) * 1 ≤ (i 1).val ∧ (i 1).val < win9_2.index ⟨(i 0).val / 10000, hN⟩ (1 : Fin 2) * 1 + 1
    rw [e5]
    omega

/-- After the launch `main_v79` holds the whole-array function of the two arrays as the region found them. -/
theorem result9 (c : Dev nD) : (dat9 V c).arrAt 2 cfg9.N = addRow (V c main_v77) (V c main_v78) :=
  (dat9 V c).arrAt_eq_of_cover 2 (addRow (V c main_v77) (V c main_v78)) (fun t _ => wrote9 V c t) covered9

end Cert.KernelIdeal.Dense

end
-- ==== Proof.RefStages.lean ====
/-
  The reference, stage by stage, in the words the kernel's regions are stated in.

  Each `dot_general` of the reference is the one product `prod` of its two operands; each "add the bias, spread over the
  rows" is `addRow` of the aggregated array and the bias regarded as one row, and with the `relu` that follows it
  `addRowMax … 0`. Nothing else of the reference is opened: the gathers, the scatter-adds and the normalisation stay the
  stages the run names.
-/
import proofs.«182035_j2637109920399_1_alg».proof.Proof.Gen.ReferenceIdeal.Read
import proofs.«182035_j2637109920399_1_alg».proof.Proof.LibMatProduct
import proofs.«182035_j2637109920399_1_alg».proof.Proof.LibRowBias

noncomputable section

namespace Cert.ReferenceIdeal.Stages

open Cert.ReferenceIdeal Cert.ReferenceIdeal.Read Idealize.ShloMosaic Idealize.ShloMosaic.ValueIdx
open Cert.MatProduct (prod rowOf colOf)
open Cert.RowBias (addRow addRowMax)

/-- The reference's product at this layer is `prod` of its operands. -/
theorem prod_v27 (x0 : (⟨S100000x128, .f32⟩ : BufTy).Contents (Elt Ideal)) (x2 : (⟨S128x64, .f32⟩ : BufTy).Contents (Elt Ideal)) :
    val_main_v27 (F := Ideal) x0 x2 = prod (x0) x2 := by
  unfold val_main_v27
  generalize (x0) = y
  simp only [Host.dotGeneral]
  exact Cert.MatProduct.dotGeneral_eq_prod (M := 100000) (K := 128) (N := 64) none _ y x2

/-- The reference's product at this layer is `prod` of its operands. -/
theorem prod_v45 (x0 : (⟨S100000x128, .f32⟩ : BufTy).Contents (Elt Ideal)) (x1 : (⟨S2x1200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    val_main_v45 (F := Ideal) x0 x1 x2 x3 x4 = prod (val_main_v44 (F := Ideal) x0 x1 x2 x3) x4 := by
  unfold val_main_v45
  generalize (val_main_v44 (F := Ideal) x0 x1 x2 x3) = y
  simp only [Host.dotGeneral]
  exact Cert.MatProduct.dotGeneral_eq_prod (M := 100000) (K := 64) (N := 64) none _ y x4

/-- The reference's product at this layer is `prod` of its operands. -/
theorem prod_v63 (x0 : (⟨S100000x128, .f32⟩ : BufTy).Contents (Elt Ideal)) (x1 : (⟨S2x1200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) :
    val_main_v63 (F := Ideal) x0 x1 x2 x3 x4 x5 x6 = prod (val_main_v62 (F := Ideal) x0 x1 x2 x3 x4 x5) x6 := by
  unfold val_main_v63
  generalize (val_main_v62 (F := Ideal) x0 x1 x2 x3 x4 x5) = y
  simp only [Host.dotGeneral]
  exact Cert.MatProduct.dotGeneral_eq_prod (M := 100000) (K := 64) (N := 1) none _ y x6

/-- The reference's product at this layer is `prod` of its operands. -/
theorem prod_v79 (x0 : (⟨S100000x128, .f32⟩ : BufTy).Contents (Elt Ideal)) (x1 : (⟨S2x1200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S1x64, .f32⟩ : BufTy).Contents (Elt Ideal)) :
    val_main_v79 (F := Ideal) x0 x1 x2 x3 x4 x5 x6 x7 x8 = prod (val_main_v78 (F := Ideal) x0 x1 x2 x3 x4 x5 x6 x7) x8 := by
  unfold val_main_v79
  generalize (val_main_v78 (F := Ideal) x0 x1 x2 x3 x4 x5 x6 x7) = y
  simp only [Host.dotGeneral]
  exact Cert.MatProduct.dotGeneral_eq_prod (M := 100000) (K := 1) (N := 64) none _ y x8

/-- The reference's product at this layer is `prod` of its operands. -/
theorem prod_v84 (x0 : (⟨S100000x128, .f32⟩ : BufTy).Contents (Elt Ideal)) (x1 : (⟨S2x1200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S1x64, .f32⟩ : BufTy).Contents (Elt Ideal)) (x9 : (⟨S64, .f32⟩ : BufTy).Contents (Elt Ideal)) (x10 : (⟨S64x1, .f32⟩ : BufTy).Contents (Elt Ideal)) :
    val_main_v84 (F := Ideal) x0 x1 x2 x3 x4 x5 x6 x7 x8 x9 x10 = prod (val_main_v83 (F := Ideal) x0 x1 x2 x3 x4 x5 x6 x7 x8 x9) x10 := by
  unfold val_main_v84
  generalize (val_main_v83 (F := Ideal) x0 x1 x2 x3 x4 x5 x6 x7 x8 x9) = y
  simp only [Host.dotGeneral]
  exact Cert.MatProduct.dotGeneral_eq_prod (M := 100000) (K := 64) (N := 1) none _ y x10

/-- The reference's bias and relu at this layer is `addRowMax` of the array and the bias regarded as one row. -/
theorem bias_v44 (x0 : (⟨S100000x128, .f32⟩ : BufTy).Contents (Elt Ideal)) (x1 : (⟨S2x1200000, .i32⟩ : BufTy).Contents (Elt Ideal)) (x2 : (⟨S128x64, .f32⟩ : BufTy).Contents (Elt Ideal)) (x3 : (⟨S64, .f32⟩ : BufTy).Contents (Elt Ideal)) (h : S64.ShapeCasts S1x64) :
    val_main_v44 (F := Ideal) x0 x1 x2 x3 = addRowMax (val_main_v40 (F := Ideal) x0 x1 x2) (shapeCast S1x64 x3 h) (Scalar.ofBits (F := Ideal) .f32 0x00000000#32) := by
  funext i
  rw [val_main_v44_apply, val_main_v43_apply, val_main_v42_apply, val_main_v41_apply, val_main_call0_v0_apply, val_main_call0_cst_apply]
  have hrow : shapeCast S1x64 x3 h (ix2 (0 : Fin 1) (colOf i)) = x3 (idx_main_v41 (idx_main_v42 i)) :=
    (Cert.RowBias.vecRow_apply (N := 64) x3 h (colOf i)).trans (congrArg x3 (funext fun a => match a with | ⟨0, _⟩ => rfl))
  show _ = max ((val_main_v40 (F := Ideal) x0 x1 x2) i + shapeCast S1x64 x3 h (ix2 (0 : Fin 1) (colOf i))) (Scalar.ofBits (F := Ideal) .f32 0x00000000#32)
  rw [hrow]
  rfl

/-- The reference's bias and relu at this layer is `addRowMax` of the array and the bias regarded as one row. -/
theorem bias_v62 (x0 : (⟨S100000x128, .f32⟩ : BufTy).Contents (Elt Ideal)) (x1 : (⟨S2x1200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (h : S64.ShapeCasts S1x64) :
    val_main_v62 (F := Ideal) x0 x1 x2 x3 x4 x5 = addRowMax (val_main_v58 (F := Ideal) x0 x1 x2 x3 x4) (shapeCast S1x64 x5 h) (Scalar.ofBits (F := Ideal) .f32 0x00000000#32) := by
  funext i
  rw [val_main_v62_apply, val_main_v61_apply, val_main_v60_apply, val_main_v59_apply, val_main_call1_v0_apply, val_main_call1_cst_apply]
  have hrow : shapeCast S1x64 x5 h (ix2 (0 : Fin 1) (colOf i)) = x5 (idx_main_v59 (idx_main_v60 i)) :=
    (Cert.RowBias.vecRow_apply (N := 64) x5 h (colOf i)).trans (congrArg x5 (funext fun a => match a with | ⟨0, _⟩ => rfl))
  show _ = max ((val_main_v58 (F := Ideal) x0 x1 x2 x3 x4) i + shapeCast S1x64 x5 h (ix2 (0 : Fin 1) (colOf i))) (Scalar.ofBits (F := Ideal) .f32 0x00000000#32)
  rw [hrow]
  rfl

/-- The reference's bias at this layer is `addRow` of the array and the bias regarded as one row. -/
theorem bias_v78 (x0 : (⟨S100000x128, .f32⟩ : BufTy).Contents (Elt Ideal)) (x1 : (⟨S2x1200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (h : S1.ShapeCasts S1x1) :
    val_main_v78 (F := Ideal) x0 x1 x2 x3 x4 x5 x6 x7 = addRow (val_main_v75 (F := Ideal) x0 x1 x2 x3 x4 x5 x6) (shapeCast S1x1 x7 h) := by
  funext i
  rw [val_main_v78_apply, val_main_v77_apply, val_main_v76_apply]
  have hrow : shapeCast S1x1 x7 h (ix2 (0 : Fin 1) (colOf i)) = x7 (idx_main_v76 (idx_main_v77 i)) :=
    (Cert.RowBias.vecRow_apply (N := 1) x7 h (colOf i)).trans (congrArg x7 (funext fun a => match a with
      | ⟨0, _⟩ => Fin.ext (by
          show (i 1).val = 0
          have h1 : (i 1).val < 1 := (i 1).isLt
          omega)))
  show _ = (val_main_v75 (F := Ideal) x0 x1 x2 x3 x4 x5 x6) i + shapeCast S1x1 x7 h (ix2 (0 : Fin 1) (colOf i))
  rw [hrow]
  rfl

/-- The reference's bias and relu at this layer is `addRowMax` of the array and the bias regarded as one row. -/
theorem bias_v83 (x0 : (⟨S100000x128, .f32⟩ : BufTy).Contents (Elt Ideal)) (x1 : (⟨S2x1200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S1x64, .f32⟩ : BufTy).Contents (Elt Ideal)) (x9 : (⟨S64, .f32⟩ : BufTy).Contents (Elt Ideal)) (h : S64.ShapeCasts S1x64) :
    val_main_v83 (F := Ideal) x0 x1 x2 x3 x4 x5 x6 x7 x8 x9 = addRowMax (val_main_v79 (F := Ideal) x0 x1 x2 x3 x4 x5 x6 x7 x8) (shapeCast S1x64 x9 h) (Scalar.ofBits (F := Ideal) .f32 0x00000000#32) := by
  funext i
  rw [val_main_v83_apply, val_main_v82_apply, val_main_v81_apply, val_main_v80_apply, val_main_call2_v0_apply, val_main_call2_cst_apply]
  have hrow : shapeCast S1x64 x9 h (ix2 (0 : Fin 1) (colOf i)) = x9 (idx_main_v80 (idx_main_v81 i)) :=
    (Cert.RowBias.vecRow_apply (N := 64) x9 h (colOf i)).trans (congrArg x9 (funext fun a => match a with | ⟨0, _⟩ => rfl))
  show _ = max ((val_main_v79 (F := Ideal) x0 x1 x2 x3 x4 x5 x6 x7 x8) i + shapeCast S1x64 x9 h (ix2 (0 : Fin 1) (colOf i))) (Scalar.ofBits (F := Ideal) .f32 0x00000000#32)
  rw [hrow]
  rfl

/-- The reference's bias at this layer is `addRow` of the array and the bias regarded as one row. -/
theorem bias_v87 (x0 : (⟨S100000x128, .f32⟩ : BufTy).Contents (Elt Ideal)) (x1 : (⟨S2x1200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S1x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal)) (h : S1.ShapeCasts S1x1) :
    val_main_v87 (F := Ideal) x0 x1 x2 x3 x4 x5 x6 x7 x8 x9 x10 x11 = addRow (val_main_v84 (F := Ideal) x0 x1 x2 x3 x4 x5 x6 x7 x8 x9 x10) (shapeCast S1x1 x11 h) := by
  funext i
  rw [val_main_v87_apply, val_main_v86_apply, val_main_v85_apply]
  have hrow : shapeCast S1x1 x11 h (ix2 (0 : Fin 1) (colOf i)) = x11 (idx_main_v85 (idx_main_v86 i)) :=
    (Cert.RowBias.vecRow_apply (N := 1) x11 h (colOf i)).trans (congrArg x11 (funext fun a => match a with
      | ⟨0, _⟩ => Fin.ext (by
          show (i 1).val = 0
          have h1 : (i 1).val < 1 := (i 1).isLt
          omega)))
  show _ = (val_main_v84 (F := Ideal) x0 x1 x2 x3 x4 x5 x6 x7 x8 x9 x10) i + shapeCast S1x1 x11 h (ix2 (0 : Fin 1) (colOf i))
  rw [hrow]
  rfl

end Cert.ReferenceIdeal.Stages

end
-- ==== Proof.Chain.lean ====
/-
  The kernel's program read boundary by boundary.

  @main is six stretches of host operations and ten launches. `W0 … W16` are the buffer contents at the seventeen
  boundaries. Going forward from the launch memory, each buffer that a later segment reads is identified with a
  stage of the reference applied to the argument arrays: the edge lists with self loops and the edge normalisation after
  the first stretch (the same host operations on both sides); after each product launch the reference's `dot_general`
  of the same operands (both are `prod`); after each gather, scale and scatter-add stretch the reference's stage
  (the same host operations applied to equal values); after each bias launch the reference's bias add, with its relu
  where the kernel floors at zero (both are `addRow` / `addRowMax`). A buffer that a segment does not write is carried
  unchanged across it. The last line is the result buffer at the last boundary: the reference's result stage.
-/
import proofs.«182035_j2637109920399_1_alg».proof.Proof.Gen.KernelIdeal.Frame
import proofs.«182035_j2637109920399_1_alg».proof.Proof.Region0
import proofs.«182035_j2637109920399_1_alg».proof.Proof.Region1
import proofs.«182035_j2637109920399_1_alg».proof.Proof.Region2
import proofs.«182035_j2637109920399_1_alg».proof.Proof.Region3
import proofs.«182035_j2637109920399_1_alg».proof.Proof.Region4
import proofs.«182035_j2637109920399_1_alg».proof.Proof.Region5
import proofs.«182035_j2637109920399_1_alg».proof.Proof.Region6
import proofs.«182035_j2637109920399_1_alg».proof.Proof.Region7
import proofs.«182035_j2637109920399_1_alg».proof.Proof.Region8
import proofs.«182035_j2637109920399_1_alg».proof.Proof.Region9
import proofs.«182035_j2637109920399_1_alg».proof.Proof.RefStages
import Idealize.ShloMosaic.Lib.StableHlo.Run

set_option maxRecDepth 16384

noncomputable section

namespace Cert.KernelIdeal.Dense

open Cert.KernelIdeal Cert.KernelIdeal.Gen Idealize.ShloMosaic Idealize.ShloMosaic.TcCoe Idealize.SL.Sem Idealize.ShloMosaic.StableHlo
open Cert.MatProduct (prod)
open Cert.RowBias (addRow addRowMax)

variable (m : (ℓ : Loc nD τ sig) → Buf (Elt Ideal) ℓ) (ρ : Dev nD → PrngReg) (c : Dev nD)

/-- A buffer that no operation of a host stretch writes holds after the stretch what it held before. -/
macro "host_keeps" : tactic => `(tactic| (
  refine StableHlo.after_of_forall_not_mem _ _ (List.forall_iff_forall_mem.mp ?_)
  simp only [hostOps0, hostOps1, hostOps3, hostOps5, hostOps7, hostOps9, List.Forall, StableHlo.nullary_writes,
    StableHlo.unary_writes, StableHlo.binary_writes, StableHlo.ternary_writes, StableHlo.reshape_writes, Finset.mem_singleton]
  repeat' apply And.intro
  all_goals exact StableHlo.devRef_ne_of_ne (by decide)))

/-! ## The arguments, carried from the launch memory to where they are read -/

theorem at0_arg0 : W0 m ρ c (Proc.devRef .tc main_arg0) = m ((c : Thread nD τ).loc main_arg0) := rfl
theorem at1_arg0 : W1 m ρ c (Proc.devRef .tc main_arg0) = m ((c : Thread nD τ).loc main_arg0) :=
  ((show StableHlo.after hostOps0 (W0 m ρ c) (Proc.devRef .tc main_arg0) = W0 m ρ c (Proc.devRef .tc main_arg0) by host_keeps)).trans (at0_arg0 m ρ c)

theorem at0_arg2 : W0 m ρ c (Proc.devRef .tc main_arg2) = m ((c : Thread nD τ).loc main_arg2) := rfl
theorem at1_arg2 : W1 m ρ c (Proc.devRef .tc main_arg2) = m ((c : Thread nD τ).loc main_arg2) :=
  ((show StableHlo.after hostOps0 (W0 m ρ c) (Proc.devRef .tc main_arg2) = W0 m ρ c (Proc.devRef .tc main_arg2) by host_keeps)).trans (at0_arg2 m ρ c)

theorem at0_arg3 : W0 m ρ c (Proc.devRef .tc main_arg3) = m ((c : Thread nD τ).loc main_arg3) := rfl
theorem at1_arg3 : W1 m ρ c (Proc.devRef .tc main_arg3) = m ((c : Thread nD τ).loc main_arg3) :=
  ((show StableHlo.after hostOps0 (W0 m ρ c) (Proc.devRef .tc main_arg3) = W0 m ρ c (Proc.devRef .tc main_arg3) by host_keeps)).trans (at0_arg3 m ρ c)
theorem at2_arg3 : W2 m ρ c (Proc.devRef .tc main_arg3) = m ((c : Thread nD τ).loc main_arg3) :=
  (W2_of_ne m ρ c main_arg3 (by decide)).trans (at1_arg3 m ρ c)

theorem at0_arg4 : W0 m ρ c (Proc.devRef .tc main_arg4) = m ((c : Thread nD τ).loc main_arg4) := rfl
theorem at1_arg4 : W1 m ρ c (Proc.devRef .tc main_arg4) = m ((c : Thread nD τ).loc main_arg4) :=
  ((show StableHlo.after hostOps0 (W0 m ρ c) (Proc.devRef .tc main_arg4) = W0 m ρ c (Proc.devRef .tc main_arg4) by host_keeps)).trans (at0_arg4 m ρ c)
theorem at2_arg4 : W2 m ρ c (Proc.devRef .tc main_arg4) = m ((c : Thread nD τ).loc main_arg4) :=
  (W2_of_ne m ρ c main_arg4 (by decide)).trans (at1_arg4 m ρ c)
theorem at3_arg4 : W3 m ρ c (Proc.devRef .tc main_arg4) = m ((c : Thread nD τ).loc main_arg4) :=
  ((show StableHlo.after hostOps1 (W2 m ρ c) (Proc.devRef .tc main_arg4) = W2 m ρ c (Proc.devRef .tc main_arg4) by host_keeps)).trans (at2_arg4 m ρ c)
theorem at4_arg4 : W4 m ρ c (Proc.devRef .tc main_arg4) = m ((c : Thread nD τ).loc main_arg4) :=
  (W4_of_ne m ρ c main_arg4 (by decide)).trans (at3_arg4 m ρ c)

theorem at0_arg5 : W0 m ρ c (Proc.devRef .tc main_arg5) = m ((c : Thread nD τ).loc main_arg5) := rfl
theorem at1_arg5 : W1 m ρ c (Proc.devRef .tc main_arg5) = m ((c : Thread nD τ).loc main_arg5) :=
  ((show StableHlo.after hostOps0 (W0 m ρ c) (Proc.devRef .tc main_arg5) = W0 m ρ c (Proc.devRef .tc main_arg5) by host_keeps)).trans (at0_arg5 m ρ c)
theorem at2_arg5 : W2 m ρ c (Proc.devRef .tc main_arg5) = m ((c : Thread nD τ).loc main_arg5) :=
  (W2_of_ne m ρ c main_arg5 (by decide)).trans (at1_arg5 m ρ c)
theorem at3_arg5 : W3 m ρ c (Proc.devRef .tc main_arg5) = m ((c : Thread nD τ).loc main_arg5) :=
  ((show StableHlo.after hostOps1 (W2 m ρ c) (Proc.devRef .tc main_arg5) = W2 m ρ c (Proc.devRef .tc main_arg5) by host_keeps)).trans (at2_arg5 m ρ c)
theorem at4_arg5 : W4 m ρ c (Proc.devRef .tc main_arg5) = m ((c : Thread nD τ).loc main_arg5) :=
  (W4_of_ne m ρ c main_arg5 (by decide)).trans (at3_arg5 m ρ c)
theorem at5_arg5 : W5 m ρ c (Proc.devRef .tc main_arg5) = m ((c : Thread nD τ).loc main_arg5) :=
  (W5_of_ne m ρ c main_arg5 (by decide)).trans (at4_arg5 m ρ c)

theorem at0_arg6 : W0 m ρ c (Proc.devRef .tc main_arg6) = m ((c : Thread nD τ).loc main_arg6) := rfl
theorem at1_arg6 : W1 m ρ c (Proc.devRef .tc main_arg6) = m ((c : Thread nD τ).loc main_arg6) :=
  ((show StableHlo.after hostOps0 (W0 m ρ c) (Proc.devRef .tc main_arg6) = W0 m ρ c (Proc.devRef .tc main_arg6) by host_keeps)).trans (at0_arg6 m ρ c)
theorem at2_arg6 : W2 m ρ c (Proc.devRef .tc main_arg6) = m ((c : Thread nD τ).loc main_arg6) :=
  (W2_of_ne m ρ c main_arg6 (by decide)).trans (at1_arg6 m ρ c)
theorem at3_arg6 : W3 m ρ c (Proc.devRef .tc main_arg6) = m ((c : Thread nD τ).loc main_arg6) :=
  ((show StableHlo.after hostOps1 (W2 m ρ c) (Proc.devRef .tc main_arg6) = W2 m ρ c (Proc.devRef .tc main_arg6) by host_keeps)).trans (at2_arg6 m ρ c)
theorem at4_arg6 : W4 m ρ c (Proc.devRef .tc main_arg6) = m ((c : Thread nD τ).loc main_arg6) :=
  (W4_of_ne m ρ c main_arg6 (by decide)).trans (at3_arg6 m ρ c)
theorem at5_arg6 : W5 m ρ c (Proc.devRef .tc main_arg6) = m ((c : Thread nD τ).loc main_arg6) :=
  (W5_of_ne m ρ c main_arg6 (by decide)).trans (at4_arg6 m ρ c)
theorem at6_arg6 : W6 m ρ c (Proc.devRef .tc main_arg6) = m ((c : Thread nD τ).loc main_arg6) :=
  ((show StableHlo.after hostOps3 (W5 m ρ c) (Proc.devRef .tc main_arg6) = W5 m ρ c (Proc.devRef .tc main_arg6) by host_keeps)).trans (at5_arg6 m ρ c)
theorem at7_arg6 : W7 m ρ c (Proc.devRef .tc main_arg6) = m ((c : Thread nD τ).loc main_arg6) :=
  (W7_of_ne m ρ c main_arg6 (by decide)).trans (at6_arg6 m ρ c)

theorem at0_arg7 : W0 m ρ c (Proc.devRef .tc main_arg7) = m ((c : Thread nD τ).loc main_arg7) := rfl
theorem at1_arg7 : W1 m ρ c (Proc.devRef .tc main_arg7) = m ((c : Thread nD τ).loc main_arg7) :=
  ((show StableHlo.after hostOps0 (W0 m ρ c) (Proc.devRef .tc main_arg7) = W0 m ρ c (Proc.devRef .tc main_arg7) by host_keeps)).trans (at0_arg7 m ρ c)
theorem at2_arg7 : W2 m ρ c (Proc.devRef .tc main_arg7) = m ((c : Thread nD τ).loc main_arg7) :=
  (W2_of_ne m ρ c main_arg7 (by decide)).trans (at1_arg7 m ρ c)
theorem at3_arg7 : W3 m ρ c (Proc.devRef .tc main_arg7) = m ((c : Thread nD τ).loc main_arg7) :=
  ((show StableHlo.after hostOps1 (W2 m ρ c) (Proc.devRef .tc main_arg7) = W2 m ρ c (Proc.devRef .tc main_arg7) by host_keeps)).trans (at2_arg7 m ρ c)
theorem at4_arg7 : W4 m ρ c (Proc.devRef .tc main_arg7) = m ((c : Thread nD τ).loc main_arg7) :=
  (W4_of_ne m ρ c main_arg7 (by decide)).trans (at3_arg7 m ρ c)
theorem at5_arg7 : W5 m ρ c (Proc.devRef .tc main_arg7) = m ((c : Thread nD τ).loc main_arg7) :=
  (W5_of_ne m ρ c main_arg7 (by decide)).trans (at4_arg7 m ρ c)
theorem at6_arg7 : W6 m ρ c (Proc.devRef .tc main_arg7) = m ((c : Thread nD τ).loc main_arg7) :=
  ((show StableHlo.after hostOps3 (W5 m ρ c) (Proc.devRef .tc main_arg7) = W5 m ρ c (Proc.devRef .tc main_arg7) by host_keeps)).trans (at5_arg7 m ρ c)
theorem at7_arg7 : W7 m ρ c (Proc.devRef .tc main_arg7) = m ((c : Thread nD τ).loc main_arg7) :=
  (W7_of_ne m ρ c main_arg7 (by decide)).trans (at6_arg7 m ρ c)
theorem at8_arg7 : W8 m ρ c (Proc.devRef .tc main_arg7) = m ((c : Thread nD τ).loc main_arg7) :=
  (W8_of_ne m ρ c main_arg7 (by decide)).trans (at7_arg7 m ρ c)

theorem at0_arg8 : W0 m ρ c (Proc.devRef .tc main_arg8) = m ((c : Thread nD τ).loc main_arg8) := rfl
theorem at1_arg8 : W1 m ρ c (Proc.devRef .tc main_arg8) = m ((c : Thread nD τ).loc main_arg8) :=
  ((show StableHlo.after hostOps0 (W0 m ρ c) (Proc.devRef .tc main_arg8) = W0 m ρ c (Proc.devRef .tc main_arg8) by host_keeps)).trans (at0_arg8 m ρ c)
theorem at2_arg8 : W2 m ρ c (Proc.devRef .tc main_arg8) = m ((c : Thread nD τ).loc main_arg8) :=
  (W2_of_ne m ρ c main_arg8 (by decide)).trans (at1_arg8 m ρ c)
theorem at3_arg8 : W3 m ρ c (Proc.devRef .tc main_arg8) = m ((c : Thread nD τ).loc main_arg8) :=
  ((show StableHlo.after hostOps1 (W2 m ρ c) (Proc.devRef .tc main_arg8) = W2 m ρ c (Proc.devRef .tc main_arg8) by host_keeps)).trans (at2_arg8 m ρ c)
theorem at4_arg8 : W4 m ρ c (Proc.devRef .tc main_arg8) = m ((c : Thread nD τ).loc main_arg8) :=
  (W4_of_ne m ρ c main_arg8 (by decide)).trans (at3_arg8 m ρ c)
theorem at5_arg8 : W5 m ρ c (Proc.devRef .tc main_arg8) = m ((c : Thread nD τ).loc main_arg8) :=
  (W5_of_ne m ρ c main_arg8 (by decide)).trans (at4_arg8 m ρ c)
theorem at6_arg8 : W6 m ρ c (Proc.devRef .tc main_arg8) = m ((c : Thread nD τ).loc main_arg8) :=
  ((show StableHlo.after hostOps3 (W5 m ρ c) (Proc.devRef .tc main_arg8) = W5 m ρ c (Proc.devRef .tc main_arg8) by host_keeps)).trans (at5_arg8 m ρ c)
theorem at7_arg8 : W7 m ρ c (Proc.devRef .tc main_arg8) = m ((c : Thread nD τ).loc main_arg8) :=
  (W7_of_ne m ρ c main_arg8 (by decide)).trans (at6_arg8 m ρ c)
theorem at8_arg8 : W8 m ρ c (Proc.devRef .tc main_arg8) = m ((c : Thread nD τ).loc main_arg8) :=
  (W8_of_ne m ρ c main_arg8 (by decide)).trans (at7_arg8 m ρ c)
theorem at9_arg8 : W9 m ρ c (Proc.devRef .tc main_arg8) = m ((c : Thread nD τ).loc main_arg8) :=
  ((show StableHlo.after hostOps5 (W8 m ρ c) (Proc.devRef .tc main_arg8) = W8 m ρ c (Proc.devRef .tc main_arg8) by host_keeps)).trans (at8_arg8 m ρ c)
theorem at10_arg8 : W10 m ρ c (Proc.devRef .tc main_arg8) = m ((c : Thread nD τ).loc main_arg8) :=
  (W10_of_ne m ρ c main_arg8 (by decide)).trans (at9_arg8 m ρ c)

theorem at0_arg9 : W0 m ρ c (Proc.devRef .tc main_arg9) = m ((c : Thread nD τ).loc main_arg9) := rfl
theorem at1_arg9 : W1 m ρ c (Proc.devRef .tc main_arg9) = m ((c : Thread nD τ).loc main_arg9) :=
  ((show StableHlo.after hostOps0 (W0 m ρ c) (Proc.devRef .tc main_arg9) = W0 m ρ c (Proc.devRef .tc main_arg9) by host_keeps)).trans (at0_arg9 m ρ c)
theorem at2_arg9 : W2 m ρ c (Proc.devRef .tc main_arg9) = m ((c : Thread nD τ).loc main_arg9) :=
  (W2_of_ne m ρ c main_arg9 (by decide)).trans (at1_arg9 m ρ c)
theorem at3_arg9 : W3 m ρ c (Proc.devRef .tc main_arg9) = m ((c : Thread nD τ).loc main_arg9) :=
  ((show StableHlo.after hostOps1 (W2 m ρ c) (Proc.devRef .tc main_arg9) = W2 m ρ c (Proc.devRef .tc main_arg9) by host_keeps)).trans (at2_arg9 m ρ c)
theorem at4_arg9 : W4 m ρ c (Proc.devRef .tc main_arg9) = m ((c : Thread nD τ).loc main_arg9) :=
  (W4_of_ne m ρ c main_arg9 (by decide)).trans (at3_arg9 m ρ c)
theorem at5_arg9 : W5 m ρ c (Proc.devRef .tc main_arg9) = m ((c : Thread nD τ).loc main_arg9) :=
  (W5_of_ne m ρ c main_arg9 (by decide)).trans (at4_arg9 m ρ c)
theorem at6_arg9 : W6 m ρ c (Proc.devRef .tc main_arg9) = m ((c : Thread nD τ).loc main_arg9) :=
  ((show StableHlo.after hostOps3 (W5 m ρ c) (Proc.devRef .tc main_arg9) = W5 m ρ c (Proc.devRef .tc main_arg9) by host_keeps)).trans (at5_arg9 m ρ c)
theorem at7_arg9 : W7 m ρ c (Proc.devRef .tc main_arg9) = m ((c : Thread nD τ).loc main_arg9) :=
  (W7_of_ne m ρ c main_arg9 (by decide)).trans (at6_arg9 m ρ c)
theorem at8_arg9 : W8 m ρ c (Proc.devRef .tc main_arg9) = m ((c : Thread nD τ).loc main_arg9) :=
  (W8_of_ne m ρ c main_arg9 (by decide)).trans (at7_arg9 m ρ c)
theorem at9_arg9 : W9 m ρ c (Proc.devRef .tc main_arg9) = m ((c : Thread nD τ).loc main_arg9) :=
  ((show StableHlo.after hostOps5 (W8 m ρ c) (Proc.devRef .tc main_arg9) = W8 m ρ c (Proc.devRef .tc main_arg9) by host_keeps)).trans (at8_arg9 m ρ c)
theorem at10_arg9 : W10 m ρ c (Proc.devRef .tc main_arg9) = m ((c : Thread nD τ).loc main_arg9) :=
  (W10_of_ne m ρ c main_arg9 (by decide)).trans (at9_arg9 m ρ c)
theorem at11_arg9 : W11 m ρ c (Proc.devRef .tc main_arg9) = m ((c : Thread nD τ).loc main_arg9) :=
  (W11_of_ne m ρ c main_arg9 (by decide)).trans (at10_arg9 m ρ c)

theorem at0_arg10 : W0 m ρ c (Proc.devRef .tc main_arg10) = m ((c : Thread nD τ).loc main_arg10) := rfl
theorem at1_arg10 : W1 m ρ c (Proc.devRef .tc main_arg10) = m ((c : Thread nD τ).loc main_arg10) :=
  ((show StableHlo.after hostOps0 (W0 m ρ c) (Proc.devRef .tc main_arg10) = W0 m ρ c (Proc.devRef .tc main_arg10) by host_keeps)).trans (at0_arg10 m ρ c)
theorem at2_arg10 : W2 m ρ c (Proc.devRef .tc main_arg10) = m ((c : Thread nD τ).loc main_arg10) :=
  (W2_of_ne m ρ c main_arg10 (by decide)).trans (at1_arg10 m ρ c)
theorem at3_arg10 : W3 m ρ c (Proc.devRef .tc main_arg10) = m ((c : Thread nD τ).loc main_arg10) :=
  ((show StableHlo.after hostOps1 (W2 m ρ c) (Proc.devRef .tc main_arg10) = W2 m ρ c (Proc.devRef .tc main_arg10) by host_keeps)).trans (at2_arg10 m ρ c)
theorem at4_arg10 : W4 m ρ c (Proc.devRef .tc main_arg10) = m ((c : Thread nD τ).loc main_arg10) :=
  (W4_of_ne m ρ c main_arg10 (by decide)).trans (at3_arg10 m ρ c)
theorem at5_arg10 : W5 m ρ c (Proc.devRef .tc main_arg10) = m ((c : Thread nD τ).loc main_arg10) :=
  (W5_of_ne m ρ c main_arg10 (by decide)).trans (at4_arg10 m ρ c)
theorem at6_arg10 : W6 m ρ c (Proc.devRef .tc main_arg10) = m ((c : Thread nD τ).loc main_arg10) :=
  ((show StableHlo.after hostOps3 (W5 m ρ c) (Proc.devRef .tc main_arg10) = W5 m ρ c (Proc.devRef .tc main_arg10) by host_keeps)).trans (at5_arg10 m ρ c)
theorem at7_arg10 : W7 m ρ c (Proc.devRef .tc main_arg10) = m ((c : Thread nD τ).loc main_arg10) :=
  (W7_of_ne m ρ c main_arg10 (by decide)).trans (at6_arg10 m ρ c)
theorem at8_arg10 : W8 m ρ c (Proc.devRef .tc main_arg10) = m ((c : Thread nD τ).loc main_arg10) :=
  (W8_of_ne m ρ c main_arg10 (by decide)).trans (at7_arg10 m ρ c)
theorem at9_arg10 : W9 m ρ c (Proc.devRef .tc main_arg10) = m ((c : Thread nD τ).loc main_arg10) :=
  ((show StableHlo.after hostOps5 (W8 m ρ c) (Proc.devRef .tc main_arg10) = W8 m ρ c (Proc.devRef .tc main_arg10) by host_keeps)).trans (at8_arg10 m ρ c)
theorem at10_arg10 : W10 m ρ c (Proc.devRef .tc main_arg10) = m ((c : Thread nD τ).loc main_arg10) :=
  (W10_of_ne m ρ c main_arg10 (by decide)).trans (at9_arg10 m ρ c)
theorem at11_arg10 : W11 m ρ c (Proc.devRef .tc main_arg10) = m ((c : Thread nD τ).loc main_arg10) :=
  (W11_of_ne m ρ c main_arg10 (by decide)).trans (at10_arg10 m ρ c)
theorem at12_arg10 : W12 m ρ c (Proc.devRef .tc main_arg10) = m ((c : Thread nD τ).loc main_arg10) :=
  ((show StableHlo.after hostOps7 (W11 m ρ c) (Proc.devRef .tc main_arg10) = W11 m ρ c (Proc.devRef .tc main_arg10) by host_keeps)).trans (at11_arg10 m ρ c)
theorem at13_arg10 : W13 m ρ c (Proc.devRef .tc main_arg10) = m ((c : Thread nD τ).loc main_arg10) :=
  (W13_of_ne m ρ c main_arg10 (by decide)).trans (at12_arg10 m ρ c)

theorem at0_arg11 : W0 m ρ c (Proc.devRef .tc main_arg11) = m ((c : Thread nD τ).loc main_arg11) := rfl
theorem at1_arg11 : W1 m ρ c (Proc.devRef .tc main_arg11) = m ((c : Thread nD τ).loc main_arg11) :=
  ((show StableHlo.after hostOps0 (W0 m ρ c) (Proc.devRef .tc main_arg11) = W0 m ρ c (Proc.devRef .tc main_arg11) by host_keeps)).trans (at0_arg11 m ρ c)
theorem at2_arg11 : W2 m ρ c (Proc.devRef .tc main_arg11) = m ((c : Thread nD τ).loc main_arg11) :=
  (W2_of_ne m ρ c main_arg11 (by decide)).trans (at1_arg11 m ρ c)
theorem at3_arg11 : W3 m ρ c (Proc.devRef .tc main_arg11) = m ((c : Thread nD τ).loc main_arg11) :=
  ((show StableHlo.after hostOps1 (W2 m ρ c) (Proc.devRef .tc main_arg11) = W2 m ρ c (Proc.devRef .tc main_arg11) by host_keeps)).trans (at2_arg11 m ρ c)
theorem at4_arg11 : W4 m ρ c (Proc.devRef .tc main_arg11) = m ((c : Thread nD τ).loc main_arg11) :=
  (W4_of_ne m ρ c main_arg11 (by decide)).trans (at3_arg11 m ρ c)
theorem at5_arg11 : W5 m ρ c (Proc.devRef .tc main_arg11) = m ((c : Thread nD τ).loc main_arg11) :=
  (W5_of_ne m ρ c main_arg11 (by decide)).trans (at4_arg11 m ρ c)
theorem at6_arg11 : W6 m ρ c (Proc.devRef .tc main_arg11) = m ((c : Thread nD τ).loc main_arg11) :=
  ((show StableHlo.after hostOps3 (W5 m ρ c) (Proc.devRef .tc main_arg11) = W5 m ρ c (Proc.devRef .tc main_arg11) by host_keeps)).trans (at5_arg11 m ρ c)
theorem at7_arg11 : W7 m ρ c (Proc.devRef .tc main_arg11) = m ((c : Thread nD τ).loc main_arg11) :=
  (W7_of_ne m ρ c main_arg11 (by decide)).trans (at6_arg11 m ρ c)
theorem at8_arg11 : W8 m ρ c (Proc.devRef .tc main_arg11) = m ((c : Thread nD τ).loc main_arg11) :=
  (W8_of_ne m ρ c main_arg11 (by decide)).trans (at7_arg11 m ρ c)
theorem at9_arg11 : W9 m ρ c (Proc.devRef .tc main_arg11) = m ((c : Thread nD τ).loc main_arg11) :=
  ((show StableHlo.after hostOps5 (W8 m ρ c) (Proc.devRef .tc main_arg11) = W8 m ρ c (Proc.devRef .tc main_arg11) by host_keeps)).trans (at8_arg11 m ρ c)
theorem at10_arg11 : W10 m ρ c (Proc.devRef .tc main_arg11) = m ((c : Thread nD τ).loc main_arg11) :=
  (W10_of_ne m ρ c main_arg11 (by decide)).trans (at9_arg11 m ρ c)
theorem at11_arg11 : W11 m ρ c (Proc.devRef .tc main_arg11) = m ((c : Thread nD τ).loc main_arg11) :=
  (W11_of_ne m ρ c main_arg11 (by decide)).trans (at10_arg11 m ρ c)
theorem at12_arg11 : W12 m ρ c (Proc.devRef .tc main_arg11) = m ((c : Thread nD τ).loc main_arg11) :=
  ((show StableHlo.after hostOps7 (W11 m ρ c) (Proc.devRef .tc main_arg11) = W11 m ρ c (Proc.devRef .tc main_arg11) by host_keeps)).trans (at11_arg11 m ρ c)
theorem at13_arg11 : W13 m ρ c (Proc.devRef .tc main_arg11) = m ((c : Thread nD τ).loc main_arg11) :=
  (W13_of_ne m ρ c main_arg11 (by decide)).trans (at12_arg11 m ρ c)
theorem at14_arg11 : W14 m ρ c (Proc.devRef .tc main_arg11) = m ((c : Thread nD τ).loc main_arg11) :=
  (W14_of_ne m ρ c main_arg11 (by decide)).trans (at13_arg11 m ρ c)

/-! ## After the first stretch: the edge lists with self loops, and the edge normalisation -/

theorem at1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl
theorem at1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results
  rfl
theorem at1_v26 : W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  after_results_simp
  rfl

theorem at2_v3 : W2 m ρ c (Proc.devRef .tc main_v3) = Cert.ReferenceIdeal.Read.val_main_v3 (F := Ideal) (m ((c : Thread nD τ).loc main_arg1)) :=
  (W2_of_ne m ρ c main_v3 (by decide)).trans (at1_v3 m ρ c)
theorem at3_v3 : W3 m ρ c (Proc.devRef .tc main_v3) = Cert.ReferenceIdeal.Read.val_main_v3 (F := Ideal) (m ((c : Thread nD τ).loc main_arg1)) :=
  ((show StableHlo.after hostOps1 (W2 m ρ c) (Proc.devRef .tc main_v3) = W2 m ρ c (Proc.devRef .tc main_v3) by host_keeps)).trans (at2_v3 m ρ c)
theorem at4_v3 : W4 m ρ c (Proc.devRef .tc main_v3) = Cert.ReferenceIdeal.Read.val_main_v3 (F := Ideal) (m ((c : Thread nD τ).loc main_arg1)) :=
  (W4_of_ne m ρ c main_v3 (by decide)).trans (at3_v3 m ρ c)
theorem at5_v3 : W5 m ρ c (Proc.devRef .tc main_v3) = Cert.ReferenceIdeal.Read.val_main_v3 (F := Ideal) (m ((c : Thread nD τ).loc main_arg1)) :=
  (W5_of_ne m ρ c main_v3 (by decide)).trans (at4_v3 m ρ c)
theorem at6_v3 : W6 m ρ c (Proc.devRef .tc main_v3) = Cert.ReferenceIdeal.Read.val_main_v3 (F := Ideal) (m ((c : Thread nD τ).loc main_arg1)) :=
  ((show StableHlo.after hostOps3 (W5 m ρ c) (Proc.devRef .tc main_v3) = W5 m ρ c (Proc.devRef .tc main_v3) by host_keeps)).trans (at5_v3 m ρ c)
theorem at7_v3 : W7 m ρ c (Proc.devRef .tc main_v3) = Cert.ReferenceIdeal.Read.val_main_v3 (F := Ideal) (m ((c : Thread nD τ).loc main_arg1)) :=
  (W7_of_ne m ρ c main_v3 (by decide)).trans (at6_v3 m ρ c)
theorem at8_v3 : W8 m ρ c (Proc.devRef .tc main_v3) = Cert.ReferenceIdeal.Read.val_main_v3 (F := Ideal) (m ((c : Thread nD τ).loc main_arg1)) :=
  (W8_of_ne m ρ c main_v3 (by decide)).trans (at7_v3 m ρ c)

theorem at2_v6 : W2 m ρ c (Proc.devRef .tc main_v6) = Cert.ReferenceIdeal.Read.val_main_v6 (F := Ideal) (m ((c : Thread nD τ).loc main_arg1)) :=
  (W2_of_ne m ρ c main_v6 (by decide)).trans (at1_v6 m ρ c)
theorem at3_v6 : W3 m ρ c (Proc.devRef .tc main_v6) = Cert.ReferenceIdeal.Read.val_main_v6 (F := Ideal) (m ((c : Thread nD τ).loc main_arg1)) :=
  ((show StableHlo.after hostOps1 (W2 m ρ c) (Proc.devRef .tc main_v6) = W2 m ρ c (Proc.devRef .tc main_v6) by host_keeps)).trans (at2_v6 m ρ c)
theorem at4_v6 : W4 m ρ c (Proc.devRef .tc main_v6) = Cert.ReferenceIdeal.Read.val_main_v6 (F := Ideal) (m ((c : Thread nD τ).loc main_arg1)) :=
  (W4_of_ne m ρ c main_v6 (by decide)).trans (at3_v6 m ρ c)
theorem at5_v6 : W5 m ρ c (Proc.devRef .tc main_v6) = Cert.ReferenceIdeal.Read.val_main_v6 (F := Ideal) (m ((c : Thread nD τ).loc main_arg1)) :=
  (W5_of_ne m ρ c main_v6 (by decide)).trans (at4_v6 m ρ c)
theorem at6_v6 : W6 m ρ c (Proc.devRef .tc main_v6) = Cert.ReferenceIdeal.Read.val_main_v6 (F := Ideal) (m ((c : Thread nD τ).loc main_arg1)) :=
  ((show StableHlo.after hostOps3 (W5 m ρ c) (Proc.devRef .tc main_v6) = W5 m ρ c (Proc.devRef .tc main_v6) by host_keeps)).trans (at5_v6 m ρ c)
theorem at7_v6 : W7 m ρ c (Proc.devRef .tc main_v6) = Cert.ReferenceIdeal.Read.val_main_v6 (F := Ideal) (m ((c : Thread nD τ).loc main_arg1)) :=
  (W7_of_ne m ρ c main_v6 (by decide)).trans (at6_v6 m ρ c)
theorem at8_v6 : W8 m ρ c (Proc.devRef .tc main_v6) = Cert.ReferenceIdeal.Read.val_main_v6 (F := Ideal) (m ((c : Thread nD τ).loc main_arg1)) :=
  (W8_of_ne m ρ c main_v6 (by decide)).trans (at7_v6 m ρ c)

theorem at2_v26 : W2 m ρ c (Proc.devRef .tc main_v26) = Cert.ReferenceIdeal.Read.val_main_v26 (F := Ideal) (m ((c : Thread nD τ).loc main_arg1)) :=
  (W2_of_ne m ρ c main_v26 (by decide)).trans (at1_v26 m ρ c)
theorem at3_v26 : W3 m ρ c (Proc.devRef .tc main_v26) = Cert.ReferenceIdeal.Read.val_main_v26 (F := Ideal) (m ((c : Thread nD τ).loc main_arg1)) :=
  ((show StableHlo.after hostOps1 (W2 m ρ c) (Proc.devRef .tc main_v26) = W2 m ρ c (Proc.devRef .tc main_v26) by host_keeps)).trans (at2_v26 m ρ c)
theorem at4_v26 : W4 m ρ c (Proc.devRef .tc main_v26) = Cert.ReferenceIdeal.Read.val_main_v26 (F := Ideal) (m ((c : Thread nD τ).loc main_arg1)) :=
  (W4_of_ne m ρ c main_v26 (by decide)).trans (at3_v26 m ρ c)
theorem at5_v26 : W5 m ρ c (Proc.devRef .tc main_v26) = Cert.ReferenceIdeal.Read.val_main_v26 (F := Ideal) (m ((c : Thread nD τ).loc main_arg1)) :=
  (W5_of_ne m ρ c main_v26 (by decide)).trans (at4_v26 m ρ c)
theorem at6_v26 : W6 m ρ c (Proc.devRef .tc main_v26) = Cert.ReferenceIdeal.Read.val_main_v26 (F := Ideal) (m ((c : Thread nD τ).loc main_arg1)) :=
  ((show StableHlo.after hostOps3 (W5 m ρ c) (Proc.devRef .tc main_v26) = W5 m ρ c (Proc.devRef .tc main_v26) by host_keeps)).trans (at5_v26 m ρ c)
theorem at7_v26 : W7 m ρ c (Proc.devRef .tc main_v26) = Cert.ReferenceIdeal.Read.val_main_v26 (F := Ideal) (m ((c : Thread nD τ).loc main_arg1)) :=
  (W7_of_ne m ρ c main_v26 (by decide)).trans (at6_v26 m ρ c)
theorem at8_v26 : W8 m ρ c (Proc.devRef .tc main_v26) = Cert.ReferenceIdeal.Read.val_main_v26 (F := Ideal) (m ((c : Thread nD τ).loc main_arg1)) :=
  (W8_of_ne m ρ c main_v26 (by decide)).trans (at7_v26 m ρ c)

/-! ## The three graph-convolution layers -/

theorem at2_v27 : W2 m ρ c (Proc.devRef .tc main_v27) = Cert.ReferenceIdeal.Read.val_main_v27 (F := Ideal) (m ((c : Thread nD τ).loc main_arg0)) (m ((c : Thread nD τ).loc main_arg2)) := by
  refine (W2_arr m ρ c 2).trans ((result0 (V1 m ρ) c).trans ?_)
  dsimp only [V1]
  rw [at1_arg0 m ρ c, at1_arg2 m ρ c]
  exact (Cert.ReferenceIdeal.Stages.prod_v27 _ _).symm
theorem at3_v40 : W3 m ρ c (Proc.devRef .tc main_v40) = Cert.ReferenceIdeal.Read.val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [at2_v27 m ρ c, at2_v3 m ρ c, at2_v6 m ρ c, at2_v26 m ρ c]
  rfl
theorem at3_v41 : W3 m ρ c (Proc.devRef .tc main_v41) = shapeCast S1x64 (m ((c : Thread nD τ).loc main_arg3)) shapeCasts_S64_S1x64 := by
  show StableHlo.after hostOps1 (W2 m ρ c) (Proc.devRef .tc main_v41) = _
  after_results
  rw [at2_arg3 m ρ c]
  rfl
theorem at4_v42 : W4 m ρ c (Proc.devRef .tc main_v42) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((result1 (V3 m ρ) c).trans ?_)
  dsimp only [V3]
  rw [at3_v40 m ρ c, at3_v41 m ρ c]
  exact (Cert.ReferenceIdeal.Stages.bias_v44 _ _ _ _ _).symm
theorem at5_v43 : W5 m ρ c (Proc.devRef .tc main_v43) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((result2 (V4 m ρ) c).trans ?_)
  dsimp only [V4]
  rw [at4_v42 m ρ c, at4_arg4 m ρ c]
  exact (Cert.ReferenceIdeal.Stages.prod_v45 _ _ _ _ _).symm
theorem at6_v56 : W6 m ρ c (Proc.devRef .tc main_v56) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  after_results_simp
  rw [at5_v43 m ρ c, at5_v3 m ρ c, at5_v6 m ρ c, at5_v26 m ρ c]
  rfl
theorem at6_v57 : W6 m ρ c (Proc.devRef .tc main_v57) = shapeCast S1x64 (m ((c : Thread nD τ).loc main_arg5)) shapeCasts_S64_S1x64 := by
  show StableHlo.after hostOps3 (W5 m ρ c) (Proc.devRef .tc main_v57) = _
  after_results
  rw [at5_arg5 m ρ c]
  rfl
theorem at7_v58 : W7 m ρ c (Proc.devRef .tc main_v58) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((result3 (V6 m ρ) c).trans ?_)
  dsimp only [V6]
  rw [at6_v56 m ρ c, at6_v57 m ρ c]
  exact (Cert.ReferenceIdeal.Stages.bias_v62 _ _ _ _ _ _ _).symm
theorem at8_v59 : W8 m ρ c (Proc.devRef .tc main_v59) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((result4 (V7 m ρ) c).trans ?_)
  dsimp only [V7]
  rw [at7_v58 m ρ c, at7_arg6 m ρ c]
  exact (Cert.ReferenceIdeal.Stages.prod_v63 _ _ _ _ _ _ _).symm
theorem at9_v71 : W9 m ρ c (Proc.devRef .tc main_v71) = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v71) = _
  after_results_simp
  rw [at8_v59 m ρ c, at8_v3 m ρ c, at8_v6 m ρ c, at8_v26 m ρ c]
  rfl
theorem at9_v72 : W9 m ρ c (Proc.devRef .tc main_v72) = shapeCast S1x1 (m ((c : Thread nD τ).loc main_arg7)) shapeCasts_S1_S1x1 := by
  show StableHlo.after hostOps5 (W8 m ρ c) (Proc.devRef .tc main_v72) = _
  after_results
  rw [at8_arg7 m ρ c]
  rfl
theorem at10_v73 : W10 m ρ c (Proc.devRef .tc main_v73) = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ((result5 (V9 m ρ) c).trans ?_)
  dsimp only [V9]
  rw [at9_v71 m ρ c, at9_v72 m ρ c]
  exact (Cert.ReferenceIdeal.Stages.bias_v78 _ _ _ _ _ _ _ _ _).symm

/-! ## The two-layer head -/

theorem at11_v74 : W11 m ρ c (Proc.devRef .tc main_v74) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 2).trans ((result6 (V10 m ρ) c).trans ?_)
  dsimp only [V10]
  rw [at10_v73 m ρ c, at10_arg8 m ρ c]
  exact (Cert.ReferenceIdeal.Stages.prod_v79 _ _ _ _ _ _ _ _ _).symm
theorem at12_v74 : W12 m ρ c (Proc.devRef .tc main_v74) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((show StableHlo.after hostOps7 (W11 m ρ c) (Proc.devRef .tc main_v74) = W11 m ρ c (Proc.devRef .tc main_v74) by host_keeps)).trans (at11_v74 m ρ c)

theorem at12_v75 : W12 m ρ c (Proc.devRef .tc main_v75) = shapeCast S1x64 (m ((c : Thread nD τ).loc main_arg9)) shapeCasts_S64_S1x64 := by
  show StableHlo.after hostOps7 (W11 m ρ c) (Proc.devRef .tc main_v75) = _
  after_results
  rw [at11_arg9 m ρ c]
  rfl
theorem at13_v76 : W13 m ρ c (Proc.devRef .tc main_v76) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W13_arr m ρ c 2).trans ((result7 (V12 m ρ) c).trans ?_)
  dsimp only [V12]
  rw [at12_v74 m ρ c, at12_v75 m ρ c]
  exact (Cert.ReferenceIdeal.Stages.bias_v83 _ _ _ _ _ _ _ _ _ _ _).symm
theorem at14_v77 : W14 m ρ c (Proc.devRef .tc main_v77) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 2).trans ((result8 (V13 m ρ) c).trans ?_)
  dsimp only [V13]
  rw [at13_v76 m ρ c, at13_arg10 m ρ c]
  exact (Cert.ReferenceIdeal.Stages.prod_v84 _ _ _ _ _ _ _ _ _ _ _).symm
theorem at15_v77 : W15 m ρ c (Proc.devRef .tc main_v77) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((show StableHlo.after hostOps9 (W14 m ρ c) (Proc.devRef .tc main_v77) = W14 m ρ c (Proc.devRef .tc main_v77) by host_keeps)).trans (at14_v77 m ρ c)

theorem at15_v78 : W15 m ρ c (Proc.devRef .tc main_v78) = shapeCast S1x1 (m ((c : Thread nD τ).loc main_arg11)) shapeCasts_S1_S1x1 := by
  show StableHlo.after hostOps9 (W14 m ρ c) (Proc.devRef .tc main_v78) = _
  after_results
  rw [at14_arg11 m ρ c]
  rfl
theorem at16_v79 : W16 m ρ c (Proc.devRef .tc main_v79) = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W16_arr m ρ c 2).trans ((result9 (V15 m ρ) c).trans ?_)
  dsimp only [V15]
  rw [at15_v77 m ρ c, at15_v78 m ρ c]
  exact (Cert.ReferenceIdeal.Stages.bias_v87 _ _ _ _ _ _ _ _ _ _ _ _ _).symm

/-- The result buffer at the last boundary is the reference's result stage of the argument arrays. -/
theorem result_stage : W16 m ρ c (Proc.devRef .tc main_v79) = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  at16_v79 m ρ c

end Cert.KernelIdeal.Dense

end
-- ==== Proof.lean ====
/-
  A three-layer graph convolution network with a two-layer head, its dense steps as tiled kernels, against the plain
  reference: equal results on the extended reals.

  Both programs compute, from node features x, an edge list and weights, the same chain. The sparse steps — the edge
  lists with self loops, the degree by scatter-add, its inverse square root gathered at both ends of every edge, and per
  layer the gather of source rows, the scaling by the edge normalisation and the scatter-add into destination rows — are
  the same host operations on both sides. The dense steps differ only in how they are carried out: where the reference
  multiplies a whole [100000, K] array by a [K, N] matrix, the kernel multiplies ten blocks of 10000 rows on the matrix
  unit (operands narrowed to bf16 first, which on the extended reals is the identity), and row p of a product only reads
  row p of the left factor; where the reference adds a bias vector spread over the rows and applies relu, the kernel adds
  the bias as a one-row array spread over each block and takes the maximum with zero, and entry (r, c) only reads entry
  (r, c) and the bias entry c. So each launch leaves in its output array the same whole-array function the reference's
  stage computes, and by induction along the program every buffer a later step reads holds the reference's stage of the
  argument arrays; the last such buffer is the result. No law of arithmetic beyond this is used — in particular nothing
  that would need the inputs to be finite —, and the ideal pass rewrote nothing, so the idealization claim is trivial.

  The three frames: the two kernel programs' by their generated frame certificates, the reference's by its generated run.
-/
import proofs.«182035_j2637109920399_1_alg».proof.Defs
import proofs.«182035_j2637109920399_1_alg».proof.Proof.Gen.Kernel
import proofs.«182035_j2637109920399_1_alg».proof.Proof.Gen.Kernel.Frame
import proofs.«182035_j2637109920399_1_alg».proof.Proof.Gen.KernelIdeal
import proofs.«182035_j2637109920399_1_alg».proof.Proof.Gen.KernelIdeal.Frame
import proofs.«182035_j2637109920399_1_alg».proof.Proof.Gen.ReferenceIdeal
import proofs.«182035_j2637109920399_1_alg».proof.Proof.Gen.Pre_finite_inputs
import proofs.«182035_j2637109920399_1_alg».proof.Proof.Gen.ReferenceIdeal.Run
import proofs.«182035_j2637109920399_1_alg».proof.Proof.Gen.ReferenceIdeal.Read
import proofs.«182035_j2637109920399_1_alg».proof.Proof.RunResult
import proofs.«182035_j2637109920399_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result buffer at the reference's result stage of the (agreeing) argument arrays: the
    kernel's by the chain through its seventeen boundaries, the reference's by its generated run. -/
theorem algebraic : Cert.algebraic_KernelIdeal_ReferenceIdeal := by
  intro m ρ m' ρ' _ hagree
  refine ⟨fun c => Cert.KernelIdeal.Gen.W16 m ρ c (Proc.devRef .tc Cert.KernelIdeal.main_v79),
    Cert.KernelIdeal.Dense.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v87_eq, h0, h1, h2, h3, h4, h5, h6, h7, h8, h9, h10, h11]
  exact (Cert.KernelIdeal.Dense.result_stage m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
